-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S50000x768 .f32) (main_arg1 : IVec S2x1600000 32) (main_arg2 : FVec F S768x128 .f32) (main_arg3 : FVec F S128 .f32) (main_arg4 : FVec F S128x2 .f32) (main_arg5 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x128 : Shape := ⟨2, ![50000, 128]⟩
abbrev S2000x768 : Shape := ⟨2, ![2000, 768]⟩
abbrev S2000x1 : Shape := ⟨2, ![2000, 1]⟩
abbrev S2000x128 : Shape := ⟨2, ![2000, 128]⟩
abbrev S1650000x128 : Shape := ⟨2, ![1650000, 128]⟩
abbrev S1x128 : Shape := ⟨2, ![1, 128]⟩
abbrev S50000x2 : Shape := ⟨2, ![50000, 2]⟩
abbrev S2000x2 : Shape := ⟨2, ![2000, 2]⟩
abbrev S1650000x2 : Shape := ⟨2, ![1650000, 2]⟩
abbrev S1x2 : Shape := ⟨2, ![1, 2]⟩
abbrev S2000 : Shape := ⟨1, ![2000]⟩

abbrev nBuf : Space → Nat
  | .hbm => 59
  | .vmem => 22
  | .smem => 0
  | _ => 0

abbrev bufTy : (tb : Table) → Fin (tcTables nBuf tb) → BufTy
  | .hbm, ⟨0, _⟩ => ⟨S50000x768, .f32⟩
  | .hbm, ⟨1, _⟩ => ⟨S2x1600000, .i32⟩
  | .hbm, ⟨2, _⟩ => ⟨S768x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000x128, .f32⟩
  | .hbm, ⟨38, _⟩ => ⟨S_, .f32⟩
  | .hbm, ⟨39, _⟩ => ⟨S50000x128, .f32⟩
  | .hbm, ⟨40, _⟩ => ⟨S1650000x1, .i32⟩
  | .hbm, ⟨41, _⟩ => ⟨S50000x128, .f32⟩
  | .hbm, ⟨42, _⟩ => ⟨S1x128, .f32⟩
  | .hbm, ⟨43, _⟩ => ⟨S50000x2, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x2, .f32⟩
  | .hbm, ⟨53, _⟩ => ⟨S_, .f32⟩
  | .hbm, ⟨54, _⟩ => ⟨S50000x2, .f32⟩
  | .hbm, ⟨55, _⟩ => ⟨S1650000x1, .i32⟩
  | .hbm, ⟨56, _⟩ => ⟨S50000x2, .f32⟩
  | .hbm, ⟨57, _⟩ => ⟨S1x2, .f32⟩
  | .hbm, ⟨58, _⟩ => ⟨S50000x2, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | .local _ .vmem, ⟨15, _⟩ => ⟨S2000x2, .f32⟩
  | .local _ .vmem, ⟨16, _⟩ => ⟨S2000x2, .f32⟩
  | .local _ .vmem, ⟨17, _⟩ => ⟨S2000x1, .f32⟩
  | .local _ .vmem, ⟨18, _⟩ => ⟨S2000x1, .f32⟩
  | .local _ .vmem, ⟨19, _⟩ => ⟨S1x2, .f32⟩
  | .local _ .vmem, ⟨20, _⟩ => ⟨S2000x2, .f32⟩
  | .local _ .vmem, ⟨21, _⟩ => ⟨S2000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S_S50000x2 : S_.BroadcastsInDim S50000x2 (![] : Fin 0 → Fin S50000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S50000_S1650000x1_S1650000_n_0_0_1_wf : ScatterDims.WF S50000 S1650000x1 S1650000 [] [0] [0] 1
  dot_S2000x768_S768x128_S2000x128_1_0_0_1_n_n_wf : DotDims.WF S2000x768 S768x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x2_S2000x2_1_0_0_1_n_n_wf : DotDims.WF S2000x128 S128x2 S2000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x2.size a ≤ S50000x2.size a
  hwx1_4 : ∀ i : grid1.Coords, EltTy.bits .f32 = 32 ∨ (Rect.block (s := S50000x2) S2000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S50000x2.size a
  hwx2_0 : ∀ i : grid2.Coords, EltTy.bits .f32 = 32 ∨ (Rect.block (s := S50000x2) S2000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S50000x2.size a
  hwx2_3 : ∀ i : grid2.Coords, EltTy.bits .f32 = 32 ∨ (Rect.block (s := S50000x2) S2000x2.size (cc2_transform_3 i) (hinb2_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x1600000 : Shape := ⟨2, ![2, 1600000]⟩
abbrev S768x128 : Shape := ⟨2, ![768, 128]⟩
abbrev S128 : Shape := ⟨1, ![128]⟩
abbrev S128x2 : Shape := ⟨2, ![128, 2]⟩
abbrev S2 : Shape := ⟨1, ![2]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S50000x128 : Shape := ⟨2, ![50000, 128]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x2 : Shape := ⟨2, ![50000, 2]⟩
abbrev S1650000x2 : Shape := ⟨2, ![1650000, 2]⟩
abbrev S1x2 : Shape := ⟨2, ![1, 2]⟩
abbrev S50000x1 : Shape := ⟨2, ![50000, 1]⟩

abbrev nBuf : Space → Nat
  | .hbm => 136
  | .vmem => 0
  | .smem => 0
  | _ => 0

abbrev hbmTy0_0 (i : Nat) : BufTy := match i % 128 with
  | 0 => ⟨S50000x768, .f32⟩
  | 1 => ⟨S2x1600000, .i32⟩
  | 2 => ⟨S768x128, .f32⟩
  | 3 => ⟨S128, .f32⟩
  | 4 => ⟨S128x2, .f32⟩
  | 5 => ⟨S2, .f32⟩
  | 6 => ⟨S50000, .i32⟩
  | 7 => ⟨S1x1600000, .i32⟩
  | 8 => ⟨S1600000, .i32⟩
  | 9 => ⟨S1650000, .i32⟩
  | 10 => ⟨S1x1600000, .i32⟩
  | 11 => ⟨S1600000, .i32⟩
  | 12 => ⟨S1650000, .i32⟩
  | 13 => ⟨S50000x128, .f32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x128, .f32⟩
  | 56 => ⟨S1650000x1, .f32⟩
  | 57 => ⟨S1650000x128, .f32⟩
  | 58 => ⟨S1650000x128, .f32⟩
  | 59 => ⟨S_, .f32⟩
  | 60 => ⟨S50000x128, .f32⟩
  | 61 => ⟨S1650000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x2, .f32⟩
  | 70 => ⟨S_, .f32⟩
  | 71 => ⟨S1650000, .f32⟩
  | 72 => ⟨S_, .f32⟩
  | 73 => ⟨S50000, .f32⟩
  | 74 => ⟨S1650000x1, .i32⟩
  | 75 => ⟨S50000, .f32⟩
  | 76 => ⟨S_, .f32⟩
  | 77 => ⟨S50000, .f32⟩
  | 78 => ⟨S50000, .i1⟩
  | 79 => ⟨S50000, .f32⟩
  | 80 => ⟨S_, .f32⟩
  | 81 => ⟨S_, .f32⟩
  | 82 => ⟨S50000, .f32⟩
  | 83 => ⟨S50000, .f32⟩
  | 84 => ⟨S_, .i32⟩
  | 85 => ⟨S1650000, .i32⟩
  | 86 => ⟨S1650000, .i1⟩
  | 87 => ⟨S_, .i32⟩
  | 88 => ⟨S1650000, .i32⟩
  | 89 => ⟨S1650000, .i32⟩
  | 90 => ⟨S1650000, .i32⟩
  | 91 => ⟨S1650000x1, .i32⟩
  | 92 => ⟨S1650000, .f32⟩
  | 93 => ⟨S_, .i32⟩
  | 94 => ⟨S1650000, .i32⟩
  | 95 => ⟨S1650000, .i1⟩
  | 96 => ⟨S_, .i32⟩
  | 97 => ⟨S1650000, .i32⟩
  | 98 => ⟨S1650000, .i32⟩
  | 99 => ⟨S1650000, .i32⟩
  | 100 => ⟨S1650000x1, .i32⟩
  | 101 => ⟨S1650000, .f32⟩
  | 102 => ⟨S1650000, .f32⟩
  | 103 => ⟨S_, .i32⟩
  | 104 => ⟨S1650000, .i32⟩
  | 105 => ⟨S1650000, .i1⟩
  | 106 => ⟨S_, .i32⟩
  | 107 => ⟨S1650000, .i32⟩
  | 108 => ⟨S1650000, .i32⟩
  | 109 => ⟨S1650000, .i32⟩
  | 110 => ⟨S1650000x1, .i32⟩
  | 111 => ⟨S1650000x2, .f32⟩
  | 112 => ⟨S1650000x1, .f32⟩
  | 113 => ⟨S1650000x2, .f32⟩
  | 114 => ⟨S1650000x2, .f32⟩
  | 115 => ⟨S_, .f32⟩
  | 116 => ⟨S50000x2, .f32⟩
  | 117 => ⟨S1650000x1, .i32⟩
  | 118 => ⟨S50000x2, .f32⟩
  | 119 => ⟨S1x2, .f32⟩
  | 120 => ⟨S50000x2, .f32⟩
  | 121 => ⟨S50000x2, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x768, .f32⟩

abbrev hbmTy0_1 (i : Nat) : BufTy := match i % 128 with
  | 0 => ⟨S50000x2, .f32⟩
  | 1 => ⟨S50000x2, .f32⟩
  | 2 => ⟨S50000x2, .f32⟩
  | 3 => ⟨S_, .f32⟩
  | 4 => ⟨S50000, .f32⟩
  | 5 => ⟨S50000x1, .f32⟩
  | 6 => ⟨S50000x2, .f32⟩
  | 7 => ⟨S50000x2, .f32⟩
  | _ => ⟨S50000x768, .f32⟩

abbrev hbmTy (i : Nat) : BufTy := match i / 128 with
  | 0 => hbmTy0_0 i
  | 1 => hbmTy0_1 i
  | _ => ⟨S50000x768, .f32⟩

abbrev bufTy : (tb : Table) → Fin (tcTables nBuf tb) → BufTy
  | .hbm, ⟨i, _⟩ => hbmTy i
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_20 : Ref sig .tc := ⟨.hbm, 122, rfl⟩
abbrev main_v88 : Ref sig .tc := ⟨.hbm, 123, rfl⟩
abbrev main_cst_21 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_22 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x2_0_1 : S1650000x1.BroadcastsInDim S1650000x2 (![0, 1] : Fin 2 → Fin S1650000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  dot_S50000x768_S768x128_S50000x128_1_0_0_1_n_n_wf : DotDims.WF S50000x768 S768x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x2_S50000x2_1_0_0_1_n_n_wf : DotDims.WF S50000x128 S128x2 S50000x2 [1] [0] [0] [1] [] []
  gather_S50000x2_S1650000x1_S1650000x2_1_0_n_n_0_1_12_wf : GatherDims.WF S50000x2 S1650000x1 S1650000x2 [1] [0] [] [0] [] 1 ![1, 2]
  scatter_S50000x2_S1650000x1_S1650000x2_1_0_0_1_wf : ScatterDims.WF S50000x2 S1650000x1 S1650000x2 [1] [0] [0] 1

variable [Facts₀]

def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S1650000x1_S1650000x2_1_0_n_n_0_1_12 : GatherDims S50000x2 S1650000x1 S1650000x2 where
  offsetDims := [1]
  collapsedSliceDims := [0]
  operandBatchingDims := []
  startIndicesBatchingDims := []
  startIndexMap := [0]
  indexVectorDim := 1
  sliceSizes := ![1, 2]
  wf := gather_S50000x2_S1650000x1_S1650000x2_1_0_n_n_0_1_12_wf
def scatter_S50000x2_S1650000x1_S1650000x2_1_0_0_1 : ScatterDims S50000x2 S1650000x1 S1650000x2 where
  updateWindowDims := [1]
  insertedWindowDims := [0]
  scatterDimsToOperandDims := [0]
  indexVectorDim := 1
  wf := scatter_S50000x2_S1650000x1_S1650000x2_1_0_0_1_wf

class Facts : Prop extends Facts₀ where

variable [Facts]
-- ==== Proof.KernelRun.lean ====
/-
  The idealized kernel's run with its result NAMED.

  The program is three grid regions among stretches of host operations. Its generated frame certificate follows the
  contents of every buffer through the program as a fold from the launch memory (after each host stretch, what its
  operations leave; after each region, its arrays at what the region's write-backs leave) and ends with every buffer
  of the core at the last fold's contents. The frame claim keeps of that only the argument arrays. Here the same run is
  stated keeping the result array too: it ends at the last fold's contents of the result buffer. Which function of
  the arguments that is, is read off the fold elsewhere.
-/
import proofs.«152044_j28544352649461_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    fold's contents of its buffer and the argument arrays as launched: the segments' run, the last thread state
    (every buffer of the core at the last fold's contents) read against the final state. -/
theorem run_named : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.Spec.lean ====
/-
  The functions a two-layer graph convolution ends at, entry by entry, on the extended reals.

  Over a graph with `a` nodes, a layer multiplies the node features by a weight matrix, sends every node's row along
  the edges and adds up what arrives. With a per-node factor `d` (a column `[a, 1]`):
  * `scaledProduct x w d` is the product `x · w` with row `p` multiplied by `d p`:
        (Σ_j x[p, j] · w[j, q]) · d[p];
  * `hiddenScaledProduct agg d b w` first turns the aggregate `agg` into the hidden features
    `max (agg[p, j] · d[p] + b[j]) 0` (post-scaling, bias, ReLU) and then does the same with them:
        (Σ_j max (agg[p, j] · d[p] + b[j]) 0 · w[j, q]) · d[p];
  * `scaledSoftmax agg d b` is the softmax of every row of `agg[p, e] · d[p] + b[e]`.
  The softmax of a row `v` is `exp (v c − M) / Σ_c' exp (v c' − M)` with `M` the row's maximum taken from minus
  infinity (`rowMax`, `rowSoftmax`).
-/
import Idealize.ShloMosaic.Lib.ValueIdx
import Idealize.ShloMosaic.PureOps.Ideal

noncomputable section

open scoped BigOperators

namespace Cert.Spec

open Idealize.ShloMosaic Idealize.ShloMosaic.ValueIdx

/-- The f32 word of minus infinity, where a row maximum starts. -/
abbrev negInf : EReal := Ideal.ofBits .f32 0xFF800000#32

/-- The maximum of a row, starting from minus infinity. -/
def rowMax {b : ℕ} (v : Fin b → EReal) : EReal := (Finset.univ : Finset (Fin b)).fold max negInf v

/-- The softmax of a row. -/
def rowSoftmax {b : ℕ} (v : Fin b → EReal) : Fin b → EReal :=
  fun c => Ideal.div (Ideal.exp (v c - rowMax v)) (∑ c' : Fin b, Ideal.exp (v c' - rowMax v))

/-- `(x · w)[p, q] · d[p]`. -/
def scaledProduct {a k n : ℕ} (x : (⟨2, ![a, k]⟩ : Shape).Idx → EReal) (w : (⟨2, ![k, n]⟩ : Shape).Idx → EReal)
    (d : (⟨2, ![a, 1]⟩ : Shape).Idx → EReal) : (⟨2, ![a, n]⟩ : Shape).Idx → EReal :=
  fun i => (∑ j : Fin k, x (ix2 (i 0) j) * w (ix2 j (i 1))) * d (ix2 (i 0) (0 : Fin 1))

theorem scaledProduct_apply {a k n : ℕ} (x : (⟨2, ![a, k]⟩ : Shape).Idx → EReal) (w : (⟨2, ![k, n]⟩ : Shape).Idx → EReal)
    (d : (⟨2, ![a, 1]⟩ : Shape).Idx → EReal) (p : Fin a) (q : Fin n) :
    scaledProduct x w d (ix2 p q) = (∑ j : Fin k, x (ix2 p j) * w (ix2 j q)) * d (ix2 p (0 : Fin 1)) := rfl

/-- `(relu (agg · d + b) · w)[p, q] · d[p]`. -/
def hiddenScaledProduct {a k n : ℕ} (agg : (⟨2, ![a, k]⟩ : Shape).Idx → EReal) (d : (⟨2, ![a, 1]⟩ : Shape).Idx → EReal)
    (b : (⟨2, ![1, k]⟩ : Shape).Idx → EReal) (w : (⟨2, ![k, n]⟩ : Shape).Idx → EReal) : (⟨2, ![a, n]⟩ : Shape).Idx → EReal :=
  fun i => (∑ j : Fin k, max (agg (ix2 (i 0) j) * d (ix2 (i 0) (0 : Fin 1)) + b (ix2 (0 : Fin 1) j)) 0 * w (ix2 j (i 1)))
    * d (ix2 (i 0) (0 : Fin 1))

theorem hiddenScaledProduct_apply {a k n : ℕ} (agg : (⟨2, ![a, k]⟩ : Shape).Idx → EReal) (d : (⟨2, ![a, 1]⟩ : Shape).Idx → EReal)
    (b : (⟨2, ![1, k]⟩ : Shape).Idx → EReal) (w : (⟨2, ![k, n]⟩ : Shape).Idx → EReal) (p : Fin a) (q : Fin n) :
    hiddenScaledProduct agg d b w (ix2 p q)
      = (∑ j : Fin k, max (agg (ix2 p j) * d (ix2 p (0 : Fin 1)) + b (ix2 (0 : Fin 1) j)) 0 * w (ix2 j q))
        * d (ix2 p (0 : Fin 1)) := rfl

/-- The softmax of every row of `agg · d + b`. -/
def scaledSoftmax {a n : ℕ} (agg : (⟨2, ![a, n]⟩ : Shape).Idx → EReal) (d : (⟨2, ![a, 1]⟩ : Shape).Idx → EReal)
    (b : (⟨2, ![1, n]⟩ : Shape).Idx → EReal) : (⟨2, ![a, n]⟩ : Shape).Idx → EReal :=
  fun i => rowSoftmax (fun e : Fin n => agg (ix2 (i 0) e) * d (ix2 (i 0) (0 : Fin 1)) + b (ix2 (0 : Fin 1) e)) (i 1)

theorem scaledSoftmax_apply {a n : ℕ} (agg : (⟨2, ![a, n]⟩ : Shape).Idx → EReal) (d : (⟨2, ![a, 1]⟩ : Shape).Idx → EReal)
    (b : (⟨2, ![1, n]⟩ : Shape).Idx → EReal) (p : Fin a) (q : Fin n) :
    scaledSoftmax agg d b (ix2 p q)
      = rowSoftmax (fun e : Fin n => agg (ix2 p e) * d (ix2 p (0 : Fin 1)) + b (ix2 (0 : Fin 1) e)) q := rfl

end Cert.Spec

end
-- ==== Proof.KernelStages.lean ====
/-
  What the idealized kernel's result array holds, as one function of the argument arrays.

  The program computes, from the edge list `x1` (row 0 the sources, row 1 the destinations of 1600000 edges):
  the source and destination of each of the 1650000 edges once every node's self loop is appended (`srcIdx`, `dstIdx`);
  the degree of every node, the number of edges arriving at it, as a scatter-add of ones (`deg`); the factor
  `dis = deg^(-1/2)` where the degree is positive and 0 elsewhere, as a column (`disCol`); the columns through which
  rows are gathered (the sources, negative values wrapped: `srcCol`) and scattered (the destinations: `dstCol`).
  Then three grid regions, each followed by a gather of its rows along the edges and a scatter-add at the destinations:
  `(x0 · x2) · dis`, aggregated (`agg1`); `(relu (agg1 · dis + x3) · x4) · dis`, aggregated (`agg2`); and the softmax of
  every row of `agg2 · dis + x5` (`out`).

  These are definitions only; that the program's result buffer ends holding `out` of its arguments, and that the
  reference computes the same function, are proved over them elsewhere.
-/
import proofs.«152044_j28544352649461_2_alg».proof.Proof.Gen.KernelIdeal
import proofs.«152044_j28544352649461_2_alg».proof.Proof.Spec

noncomputable section

namespace Cert.KernelIdeal.Stages

open Cert.KernelIdeal Cert.KernelIdeal.Gen
open Idealize.ShloMosaic Idealize.SL.Sem

/-! ## The stages -/

/-- The source node of every edge: row 0 of the edge list, then the self loops `0, 1, …, 49999`. -/
def srcIdx (x1 : IVec S2x1600000 32) : IVec S1650000 32 :=
  concatenate S1650000 0 [⟨S1600000, shapeCast S1600000 (extractStridedSlice S1x1600000 ![0, 0] x1 slices_S2x1600000_S1x1600000_0_0) shapeCasts_S1x1600000_S1600000⟩,
    ⟨S50000, iotaInDim S50000 32 0⟩] concatenates_S1600000_S50000_S1650000_d0

/-- The destination node of every edge: row 1 of the edge list, then the self loops. -/
def dstIdx (x1 : IVec S2x1600000 32) : IVec S1650000 32 :=
  concatenate S1650000 0 [⟨S1600000, shapeCast S1600000 (extractStridedSlice S1x1600000 ![1, 0] x1 slices_S2x1600000_S1x1600000_1_0) shapeCasts_S1x1600000_S1600000⟩,
    ⟨S50000, iotaInDim S50000 32 0⟩] concatenates_S1600000_S50000_S1650000_d0

/-- The column of destinations, through which every scatter-add goes. -/
def dstCol (x1 : IVec S2x1600000 32) : IVec S1650000x1 32 :=
  broadcastInDim S1650000x1 ![0] bcast_S1650000_S1650000x1_0 (dstIdx x1)

/-- The column of sources, a negative value wrapped by the number of nodes, through which every gather goes. -/
def srcCol (x1 : IVec S2x1600000 32) : IVec S1650000x1 32 :=
  broadcastInDim S1650000x1 ![0] bcast_S1650000_S1650000x1_0
    (select (cmpi .slt (srcIdx x1) (broadcastInDim S1650000 ![] bcast_S_S1650000 (constantI S_ 32 0#32)))
      (addi (srcIdx x1) (broadcastInDim S1650000 ![] bcast_S_S1650000 (constantI S_ 32 50000#32))) (srcIdx x1))

/-- The degree of every node: ones added up at the destinations. -/
def deg (x1 : IVec S2x1600000 32) : FVec Ideal S50000 .f32 :=
  Host.scatterAdd scatter_S50000_S1650000x1_S1650000_n_0_0_1
    (broadcastInDim S50000 ![] bcast_S_S50000 (constant (F := Ideal) S_ .f32 0x00000000#32)) (dstCol x1)
    (broadcastInDim S1650000 ![] bcast_S_S1650000 (constant (F := Ideal) S_ .f32 0x3F800000#32))

/-- `deg^(-1/2)` where the degree is positive, 0 elsewhere. -/
def dis (x1 : IVec S2x1600000 32) : FVec Ideal S50000 .f32 :=
  select (cmpf (F := Ideal) .ogt (deg x1) (broadcastInDim S50000 ![] bcast_S_S50000 (constant (F := Ideal) S_ .f32 0x00000000#32)))
    (Host.rsqrt (deg x1))
    (broadcastInDim S50000 ![] bcast_S_S50000 (id (constant (F := Ideal) S_ .f32 0x00000000#32)))

/-- The factor as a column. -/
def disCol (x1 : IVec S2x1600000 32) : FVec Ideal S50000x1 .f32 :=
  shapeCast S50000x1 (dis x1) shapeCasts_S50000_S50000x1

/-- `(x0 · x2) · dis`, its rows gathered along the edges and added up at the destinations. -/
def agg1 (x0 : FVec Ideal S50000x768 .f32) (x1 : IVec S2x1600000 32) (x2 : FVec Ideal S768x128 .f32) : FVec Ideal S50000x128 .f32 :=
  Host.scatterAdd scatter_S50000x128_S1650000x1_S1650000x128_1_0_0_1
    (broadcastInDim S50000x128 ![] bcast_S_S50000x128 (constant (F := Ideal) S_ .f32 0x00000000#32)) (dstCol x1)
    (Host.gather gather_S50000x128_S1650000x1_S1650000x128_1_0_n_n_0_1_1128
      (Cert.Spec.scaledProduct (a := 50000) (k := 768) (n := 128) x0 x2 (disCol x1)) (srcCol x1))

/-- The first layer's bias as one row. -/
def biasRow1 (x3 : FVec Ideal S128 .f32) : FVec Ideal S1x128 .f32 := shapeCast S1x128 x3 shapeCasts_S128_S1x128

/-- `(relu (agg1 · dis + x3) · x4) · dis`, its rows gathered along the edges and added up at the destinations. -/
def agg2 (x0 : FVec Ideal S50000x768 .f32) (x1 : IVec S2x1600000 32) (x2 : FVec Ideal S768x128 .f32) (x3 : FVec Ideal S128 .f32)
    (x4 : FVec Ideal S128x2 .f32) : FVec Ideal S50000x2 .f32 :=
  Host.scatterAdd scatter_S50000x2_S1650000x1_S1650000x2_1_0_0_1
    (broadcastInDim S50000x2 ![] bcast_S_S50000x2 (constant (F := Ideal) S_ .f32 0x00000000#32)) (dstCol x1)
    (Host.gather gather_S50000x2_S1650000x1_S1650000x2_1_0_n_n_0_1_12
      (Cert.Spec.hiddenScaledProduct (a := 50000) (k := 128) (n := 2) (agg1 x0 x1 x2) (disCol x1) (biasRow1 x3) x4) (srcCol x1))

/-- The second layer's bias as one row. -/
def biasRow2 (x5 : FVec Ideal S2 .f32) : FVec Ideal S1x2 .f32 := shapeCast S1x2 x5 shapeCasts_S2_S1x2

/-- The result: the softmax of every row of `agg2 · dis + x5`. -/
def out (x0 : FVec Ideal S50000x768 .f32) (x1 : IVec S2x1600000 32) (x2 : FVec Ideal S768x128 .f32) (x3 : FVec Ideal S128 .f32)
    (x4 : FVec Ideal S128x2 .f32) (x5 : FVec Ideal S2 .f32) : FVec Ideal S50000x2 .f32 :=
  Cert.Spec.scaledSoftmax (a := 50000) (n := 2) (agg2 x0 x1 x2 x3 x4) (disCol x1) (biasRow2 x5)

end Cert.KernelIdeal.Stages

end
-- ==== Proof.KernelFold1.lean ====
/-
  The buffers after the first host stretch.

  The program's first eighteen host operations take the edge list apart and compute the degree. Read at the buffers
  the rest of the program uses, they leave: the edges' sources and destinations (the edge list's rows, the self loops
  appended); whether each node's degree is positive; the degree's inverse square root; and a zero constant. The
  degree itself is the scatter-add of ones through the destination column (`Stages.deg`).
-/
import proofs.«152044_j28544352649461_2_alg».proof.Proof.Gen.KernelIdeal.Frame
import proofs.«152044_j28544352649461_2_alg».proof.Proof.KernelStages
import Idealize.ShloMosaic.Lib.StableHlo.Run

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W1_src : W1 (F := Ideal) m ρ c (Proc.devRef .tc main_v5) = srcIdx (m ((c.tc : Thread nD τ).loc main_arg1)) := by
  dsimp only [W1, W0, hostOps0]
  after_results
  rfl

theorem W1_dst : W1 (F := Ideal) m ρ c (Proc.devRef .tc main_v6) = dstIdx (m ((c.tc : Thread nD τ).loc main_arg1)) := by
  dsimp only [W1, W0, hostOps0]
  after_results
  rfl

set_option maxHeartbeats 2000000 in
theorem W1_pos : W1 (F := Ideal) m ρ c (Proc.devRef .tc main_v12)
    = cmpf (F := Ideal) .ogt (deg (m ((c.tc : Thread nD τ).loc main_arg1)))
        (broadcastInDim S50000 ![] bcast_S_S50000 (constant (F := Ideal) S_ .f32 0x00000000#32)) := by
  dsimp only [W1, W0, hostOps0]
  after_results
  rfl

set_option maxHeartbeats 2000000 in
theorem W1_rsqrt : W1 (F := Ideal) m ρ c (Proc.devRef .tc main_v13) = Host.rsqrt (deg (m ((c.tc : Thread nD τ).loc main_arg1))) := by
  dsimp only [W1, W0, hostOps0]
  after_results
  rfl

theorem W1_zero : W1 (F := Ideal) m ρ c (Proc.devRef .tc main_cst_2) = constant (F := Ideal) S_ .f32 0x00000000#32 := by
  dsimp only [W1, W0, hostOps0]
  after_results

end Cert.KernelIdeal.Stages

end
-- ==== Proof.KernelFold3.lean ====
/-
  The buffers when the first region is entered.

  Between the first host stretch and the first region the program selects the per-node factor (`deg^(-1/2)` where the
  degree is positive, 0 elsewhere) and makes it a column. The edges' sources and destinations and the argument arrays
  are written by none of these operations and keep their contents.
-/
import proofs.«152044_j28544352649461_2_alg».proof.Proof.KernelFold1

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes keeps its contents: each operation's one result buffer is
    another buffer. -/
local macro "not_written" b:term:max ops:term:max V:term:max : tactic => `(tactic| (
  refine StableHlo.after_of_forall_not_mem (b := Proc.devRef .tc $b) $ops $V (List.forall_iff_forall_mem.mp ?_)
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- The selection of the factor, read through the buffers' own types: the contents of a buffer at its tensor type
    are its contents (the transport is along an equation between equal types). -/
theorem select_cast (a : IVec S50000 1) (b : FVec Ideal S50000 .f32) (z : FVec Ideal S_ .f32) :
    (((TRef.of (sig := sig) (T := ⟨S50000, .f32⟩) main_v14).toBuf (Val := Elt Ideal)
      (select ((TRef.of (sig := sig) (T := ⟨S50000, .i1⟩) main_v12).ofBuf (Val := Elt Ideal) a)
        ((TRef.of (sig := sig) (T := ⟨S50000, .f32⟩) main_v13).ofBuf (Val := Elt Ideal) b)
        ((TRef.of (sig := sig) (T := ⟨S50000, .f32⟩) main_call0_v1).ofBuf (Val := Elt Ideal)
          ((TRef.of (sig := sig) (T := ⟨S50000, .f32⟩) main_call0_v1).toBuf (Val := Elt Ideal)
            (broadcastInDim S50000 ![] bcast_S_S50000
              ((TRef.of (sig := sig) (T := ⟨S_, .f32⟩) main_call0_v0).ofBuf (Val := Elt Ideal)
                ((TRef.of (sig := sig) (T := ⟨S_, .f32⟩) main_call0_v0).toBuf (Val := Elt Ideal)
                  (id ((TRef.of (sig := sig) (T := ⟨S_, .f32⟩) main_cst_2).ofBuf (Val := Elt Ideal) z))))))))) : FVec Ideal S50000 .f32)
      = select a b (broadcastInDim S50000 ![] bcast_S_S50000 (id z)) := rfl

/-- A vector recast to a column, read through the column buffer's own type. -/
theorem column_cast (v : main_v14.ty.Contents (Elt Ideal)) (he : main_v14.ty.elt = main_v15.ty.elt)
    (hn : main_v14.ty.shape.ShapeCasts main_v15.ty.shape) :
    ((fun i => he ▸ shapeCast main_v15.ty.shape v hn i) : main_v15.ty.Contents (Elt Ideal))
      = (shapeCast S50000x1 (v : FVec Ideal S50000 .f32) shapeCasts_S50000_S50000x1 : FVec Ideal S50000x1 .f32) := rfl

theorem W3_dis : W3 (F := Ideal) m ρ c (Proc.devRef .tc main_v15) = disCol (m ((c.tc : Thread nD τ).loc main_arg1)) := by
  have hpos := W1_pos m ρ c
  have hrs := W1_rsqrt m ρ c
  have hz := W1_zero m ρ c
  show StableHlo.after hostOps0_2 (StableHlo.after hostOps0_1 (W1 (F := Ideal) m ρ c)) (Proc.devRef .tc main_v15) = _
  generalize W1 (F := Ideal) m ρ c = W at hpos hrs hz ⊢
  dsimp only [hostOps0_1, hostOps0_2]
  after_results
  rw [hpos, hrs, hz]
  unfold disCol dis
  generalize deg (m ((c.tc : Thread nD τ).loc main_arg1)) = d
  exact (column_cast _ rfl _).trans
    (congrArg (fun v => shapeCast S50000x1 v shapeCasts_S50000_S50000x1) (select_cast _ _ _))

theorem W3_src : W3 (F := Ideal) m ρ c (Proc.devRef .tc main_v5) = srcIdx (m ((c.tc : Thread nD τ).loc main_arg1)) :=
  calc W3 (F := Ideal) m ρ c (Proc.devRef .tc main_v5)
    _ = W2 (F := Ideal) m ρ c (Proc.devRef .tc main_v5) := by not_written main_v5 hostOps0_2 (W2 (F := Ideal) m ρ c)
    _ = W1 (F := Ideal) m ρ c (Proc.devRef .tc main_v5) := by not_written main_v5 hostOps0_1 (W1 (F := Ideal) m ρ c)
    _ = srcIdx (m ((c.tc : Thread nD τ).loc main_arg1)) := W1_src m ρ c

theorem W3_dst : W3 (F := Ideal) m ρ c (Proc.devRef .tc main_v6) = dstIdx (m ((c.tc : Thread nD τ).loc main_arg1)) :=
  calc W3 (F := Ideal) m ρ c (Proc.devRef .tc main_v6)
    _ = W2 (F := Ideal) m ρ c (Proc.devRef .tc main_v6) := by not_written main_v6 hostOps0_2 (W2 (F := Ideal) m ρ c)
    _ = W1 (F := Ideal) m ρ c (Proc.devRef .tc main_v6) := by not_written main_v6 hostOps0_1 (W1 (F := Ideal) m ρ c)
    _ = dstIdx (m ((c.tc : Thread nD τ).loc main_arg1)) := W1_dst m ρ c

theorem W3_arg0 : W3 (F := Ideal) m ρ c (Proc.devRef .tc main_arg0) = m ((c.tc : Thread nD τ).loc main_arg0) :=
  calc W3 (F := Ideal) m ρ c (Proc.devRef .tc main_arg0)
    _ = W2 (F := Ideal) m ρ c (Proc.devRef .tc main_arg0) := by not_written main_arg0 hostOps0_2 (W2 (F := Ideal) m ρ c)
    _ = W1 (F := Ideal) m ρ c (Proc.devRef .tc main_arg0) := by not_written main_arg0 hostOps0_1 (W1 (F := Ideal) m ρ c)
    _ = W0 (F := Ideal) m ρ c (Proc.devRef .tc main_arg0) := by not_written main_arg0 hostOps0 (W0 (F := Ideal) m ρ c)
    _ = m ((c.tc : Thread nD τ).loc main_arg0) := rfl

theorem W3_arg2 : W3 (F := Ideal) m ρ c (Proc.devRef .tc main_arg2) = m ((c.tc : Thread nD τ).loc main_arg2) :=
  calc W3 (F := Ideal) m ρ c (Proc.devRef .tc main_arg2)
    _ = W2 (F := Ideal) m ρ c (Proc.devRef .tc main_arg2) := by not_written main_arg2 hostOps0_2 (W2 (F := Ideal) m ρ c)
    _ = W1 (F := Ideal) m ρ c (Proc.devRef .tc main_arg2) := by not_written main_arg2 hostOps0_1 (W1 (F := Ideal) m ρ c)
    _ = W0 (F := Ideal) m ρ c (Proc.devRef .tc main_arg2) := by not_written main_arg2 hostOps0 (W0 (F := Ideal) m ρ c)
    _ = m ((c.tc : Thread nD τ).loc main_arg2) := rfl

theorem W3_arg3 : W3 (F := Ideal) m ρ c (Proc.devRef .tc main_arg3) = m ((c.tc : Thread nD τ).loc main_arg3) :=
  calc W3 (F := Ideal) m ρ c (Proc.devRef .tc main_arg3)
    _ = W2 (F := Ideal) m ρ c (Proc.devRef .tc main_arg3) := by not_written main_arg3 hostOps0_2 (W2 (F := Ideal) m ρ c)
    _ = W1 (F := Ideal) m ρ c (Proc.devRef .tc main_arg3) := by not_written main_arg3 hostOps0_1 (W1 (F := Ideal) m ρ c)
    _ = W0 (F := Ideal) m ρ c (Proc.devRef .tc main_arg3) := by not_written main_arg3 hostOps0 (W0 (F := Ideal) m ρ c)
    _ = m ((c.tc : Thread nD τ).loc main_arg3) := rfl

theorem W3_arg4 : W3 (F := Ideal) m ρ c (Proc.devRef .tc main_arg4) = m ((c.tc : Thread nD τ).loc main_arg4) :=
  calc W3 (F := Ideal) m ρ c (Proc.devRef .tc main_arg4)
    _ = W2 (F := Ideal) m ρ c (Proc.devRef .tc main_arg4) := by not_written main_arg4 hostOps0_2 (W2 (F := Ideal) m ρ c)
    _ = W1 (F := Ideal) m ρ c (Proc.devRef .tc main_arg4) := by not_written main_arg4 hostOps0_1 (W1 (F := Ideal) m ρ c)
    _ = W0 (F := Ideal) m ρ c (Proc.devRef .tc main_arg4) := by not_written main_arg4 hostOps0 (W0 (F := Ideal) m ρ c)
    _ = m ((c.tc : Thread nD τ).loc main_arg4) := rfl

theorem W3_arg5 : W3 (F := Ideal) m ρ c (Proc.devRef .tc main_arg5) = m ((c.tc : Thread nD τ).loc main_arg5) :=
  calc W3 (F := Ideal) m ρ c (Proc.devRef .tc main_arg5)
    _ = W2 (F := Ideal) m ρ c (Proc.devRef .tc main_arg5) := by not_written main_arg5 hostOps0_2 (W2 (F := Ideal) m ρ c)
    _ = W1 (F := Ideal) m ρ c (Proc.devRef .tc main_arg5) := by not_written main_arg5 hostOps0_1 (W1 (F := Ideal) m ρ c)
    _ = W0 (F := Ideal) m ρ c (Proc.devRef .tc main_arg5) := by not_written main_arg5 hostOps0 (W0 (F := Ideal) m ρ c)
    _ = m ((c.tc : Thread nD τ).loc main_arg5) := rfl

end Cert.KernelIdeal.Stages

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.Region0.lean ====
/-
  The first layer's dense product, as one function of whole arrays.

  The first of the three kernels multiplies the node features x : [50000, 768] by the weight matrix w : [768, 128]
  and then multiplies row p of the product by the per-node factor d[p, 0], d : [50000, 1]:

      out[p, q] = (Σ_k x[p, k] · w[k, q]) · d[p, 0].

  It runs over 25 points. Point t works on rows 2000·t … 2000·t + 1999: it reads those rows of x and of d, and all of
  w, and writes those rows of the output. So

  * inside a block, entry (p, q) of what the body stores is (Σ_k x0[p, k] · x1[k, q]) · x2[p, 0] of the three blocks
    it loaded (`pay_apply`): on the extended reals the narrowing of the operands is the identity, the product
    accumulates into zero, and the factor's column is repeated along each row;
  * a block's entry (p, ·) at point t is the array's entry (2000·t + p, ·), for x, for d and for the output, and the
    weight's block is the weight (`idx_facts`), so what point t writes back is block t of the scaled product of the
    whole arrays (`block_entry`, `flushed_eq`);
  * row r of the output lies in the block of point r / 2000, so the 25 blocks cover all 50000 rows (`covered`) and
    the output array ends holding the scaled product everywhere (`final`).
-/
import proofs.«152044_j28544352649461_2_alg».proof.Proof.Gen.KernelIdeal.Frame
import proofs.«152044_j28544352649461_2_alg».proof.Proof.Spec
import proofs.«152044_j28544352649461_2_alg».proof.Proof.LibPlainMatmul
import proofs.«152044_j28544352649461_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.TcCoe Idealize.SL.Sem
open Idealize.ShloMosaic.Pipeline (Dat)
open Cert.KernelIdeal Cert.KernelIdeal.Gen

namespace Cert.KernelIdeal.Region0

/-- The zero offsets of a whole-block access, as a constant function. -/
theorem hz : (![0, 0] : Fin 2 → Nat) = fun _ => 0 := funext fun a => by fin_cases a <;> rfl

/-- Entry (p, q) of the body's payload: the row-by-column product of the first two blocks, times the third block's
    entry of row p. The format changes are the identity on the extended reals, the accumulator is zero, the cast is
    to the same shape and the broadcast repeats the column along each row. -/
theorem pay_apply (x0 : Vec Ideal S2000x768 .f32) (x1 : Vec Ideal S768x128 .f32) (x2 : Vec Ideal S2000x1 .f32)
    (p : Fin 2000) (q : Fin 128) :
    Gen.k0_pay1 (F := Ideal) x0 x1 x2 (ix2 p q)
      = (∑ k : Fin 768, x0 (ix2 p k) * x1 (ix2 k q)) * x2 (ix2 p (0 : Fin 1)) := by
  unfold Gen.k0_pay1
  refine (mulf_apply _ _ (ix2 p q)).trans ?_
  refine congrArg₂ (· * ·) ?_ ?_
  · exact matmul_plain_zero_apply dot_S2000x768_S768x128_S2000x128_1_0_0_1_n_n rfl none _ _ p q
  · refine (Cert.LibKeepdims.broadcastTo_a1_ac_apply _ _ p q).trans ?_
    rw [shapeCast_self]

/-- The payload of three blocks that are rows b·2000 … b·2000 + 1999 of x and of d, and all of w, read at (p, q),
    is the scaled product of the whole arrays at row b·2000 + p and column q. -/
theorem block_entry (x0 : Vec Ideal S2000x768 .f32) (x1 : Vec Ideal S768x128 .f32) (x2 : Vec Ideal S2000x1 .f32)
    (A0 : S50000x768.Idx → EReal) (A1 : S768x128.Idx → EReal) (A2 : S50000x1.Idx → EReal)
    (b : ℕ) (j : S2000x128.Idx) (i : S50000x128.Idx)
    (hi0 : (i 0).val = b * 2000 + (j 0).val) (hi1 : (i 1).val = (j 1).val)
    (h0 : ∀ (y : S2000x768.Idx) (k : S50000x768.Idx), (k 0).val = b * 2000 + (y 0).val → (k 1).val = (y 1).val → x0 y = A0 k)
    (h1 : ∀ y : S768x128.Idx, x1 y = A1 y)
    (h2 : ∀ (y : S2000x1.Idx) (k : S50000x1.Idx), (k 0).val = b * 2000 + (y 0).val → (k 1).val = (y 1).val → x2 y = A2 k) :
    Gen.k0_pay1 (F := Ideal) x0 x1 x2 j = Cert.Spec.scaledProduct (a := 50000) (k := 768) (n := 128) A0 A1 A2 i := by
  obtain ⟨p, q, rfl⟩ : ∃ (p : Fin 2000) (q : Fin 128), j = ix2 p q := ⟨j 0, j 1, eq_ix2 j⟩
  obtain ⟨P, Q, rfl⟩ : ∃ (P : Fin 50000) (Q : Fin 128), i = ix2 P Q := ⟨i 0, i 1, eq_ix2 i⟩
  obtain rfl : Q = q := Fin.ext hi1
  refine (pay_apply x0 x1 x2 p Q).trans ?_
  refine Eq.trans ?_ (Cert.Spec.scaledProduct_apply A0 A1 A2 P Q).symm
  exact congrArg₂ (· * ·) (Finset.sum_congr rfl fun k _ => congrArg₂ (· * ·) (h0 _ _ hi0 rfl) (h1 _)) (h2 _ _ hi0 rfl)

/-- The printed index maps over the grid: the row windows (x, d and the output) are at block (t, 0) at point t, the
    weight window is at block (0, 0) at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays as the region finds them: output entry
    (p, q) of the block is array entry (2000·t + p, q); it reads rows 2000·t + p of x and of d, which are rows p of
    their blocks at point t, and column q of w, whose block is the whole of w. -/
theorem flushed_eq (V : (c : Dev nD) → (b : Ref sig .tc) → Buf (Elt Ideal) ((c : Thread nD τ).loc b))
    (c : Dev nD) (t : Fin cfg0.N) :
    (Gen.dat0 (F := Ideal) V c).flushed 3 t
      = ((cfg0.win 3).blk t).view.read (Elt Ideal)
          (Cert.Spec.scaledProduct (a := 50000) (k := 768) (n := 128) (V c main_arg0) (V c main_arg2) (V c main_v15)) := by
  show (cfg0.win 3).cut (grid0.coords t) ((Gen.dat0 (F := Ideal) V c).after 3 t) = _
  rw [Gen.after0_3]
  unfold Gen.out0_3
  rw [View.canon_unit_zero hz]
  simp only [View.ld_unit_zero (S := S2000x768) hz, View.ld_unit_zero (S := S768x128) hz,
    View.ld_unit_zero (S := S2000x1) hz]
  obtain ⟨e00, e01, e10, e11, e20, e21, e30, e31⟩ := idx_facts t
  funext j
  refine block_entry (Gen.iblk0 V c 0 t) (Gen.iblk0 V c 1 t) (Gen.iblk0 V c 2 t)
    (V c main_arg0) (V c main_arg2) (V c main_v15) t.val
    ((cfg0.win 3).xinj (grid0.coords t) j) (((cfg0.win 3).blk t).view.emb j) ?_ ?_ ?_ ?_ ?_
  · show win0_3.index t (0 : Fin 2) * 2000 + 1 * (j 0).val = t.val * 2000 + (j 0).val
    rw [e30]; omega
  · show win0_3.index t (1 : Fin 2) * 128 + 1 * (j 1).val = (j 1).val
    rw [e31]; omega
  · intro y k hk0 hk1
    show V c main_arg0 (((cfg0.win 0).blk t).view.emb y) = V c main_arg0 k
    refine congrArg _ (funext fun a => Fin.ext ?_)
    match a with
    | ⟨0, _⟩ => show win0_0.index t (0 : Fin 2) * 2000 + 1 * (y 0).val = (k 0).val; rw [e00, hk0]; omega
    | ⟨1, _⟩ => show win0_0.index t (1 : Fin 2) * 768 + 1 * (y 1).val = (k 1).val; rw [e01, hk1]; omega
  · intro y
    show V c main_arg2 (((cfg0.win 1).blk t).view.emb y) = V c main_arg2 y
    refine congrArg _ (funext fun a => Fin.ext ?_)
    match a with
    | ⟨0, _⟩ => show win0_1.index t (0 : Fin 2) * 768 + 1 * (y 0).val = (y 0).val; rw [e10]; omega
    | ⟨1, _⟩ => show win0_1.index t (1 : Fin 2) * 128 + 1 * (y 1).val = (y 1).val; rw [e11]; omega
  · intro y k hk0 hk1
    show V c main_v15 (((cfg0.win 2).blk t).view.emb y) = V c main_v15 k
    refine congrArg _ (funext fun a => Fin.ext ?_)
    match a with
    | ⟨0, _⟩ => show win0_2.index t (0 : Fin 2) * 2000 + 1 * (y 0).val = (k 0).val; rw [e20, hk0]; omega
    | ⟨1, _⟩ => show win0_2.index t (1 : Fin 2) * 1 + 1 * (y 1).val = (k 1).val; rw [e21, hk1]; omega

/-- An index of the output array is in point t's block iff each coordinate is in the block's range on its axis. -/
theorem mem_blk (t : Fin cfg0.N) (i : S50000x128.Idx) :
    i ∈ ((cfg0.win 3).blk t).view.set
      ↔ ∀ a : Fin 2, win0_3.index t a * S2000x128.size a ≤ (i a).val
          ∧ (i a).val < win0_3.index t a * S2000x128.size a + S2000x128.size a := by
  show i ∈ ((View.whole main_v16).slice (win0_3.rect t)).set ↔ _
  rw [View.set_slice_whole, Rect.mem_set_unit]
  exact Iff.rfl

/-- Every index of the output array is in some point's block: row r is in the block of point r / 2000, and every
    block has all 128 columns. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := Gen.N_0
  refine ⟨⟨(i 0).val / 2000, by rw [hN]; omega⟩, Gen.flush0_3 _, ?_⟩
  rw [mem_blk]
  obtain ⟨-, -, -, -, -, -, e30, e31⟩ := idx_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]
    show (i 0).val / 2000 * 2000 ≤ (i 0).val ∧ (i 0).val < (i 0).val / 2000 * 2000 + 2000
    omega
  | ⟨1, _⟩ =>
    show win0_3.index _ (1 : Fin 2) * 128 ≤ (i 1).val ∧ (i 1).val < win0_3.index _ (1 : Fin 2) * 128 + 128
    rw [e31]
    omega

/-- The output array after the region: the product x · w with row p multiplied by d[p, 0], at every entry. -/
theorem final (V : (c : Dev nD) → (b : Ref sig .tc) → Buf (Elt Ideal) ((c : Thread nD τ).loc b))
    (c : Dev nD) :
    (Gen.dat0 (F := Ideal) V c).arrAt 3 cfg0.N
      = Cert.Spec.scaledProduct (a := 50000) (k := 768) (n := 128) (V c main_arg0) (V c main_arg2) (V c main_v15) :=
  (Gen.dat0 (F := Ideal) V c).arrAt_eq_of_cover 3 _ (fun t _ => flushed_eq V c t) covered

end Cert.KernelIdeal.Region0

end
-- ==== Proof.KernelFold5.lean ====
/-
  The buffers after the first region and when the second is entered.

  The first region leaves its output array at the pre-scaled feature product `(x0 · x2) · dis` (the region's
  whole-array function) and every other buffer as it was. The host stretch after it gathers that array's rows along
  the source column, adds them up through the destination column from zero (the first aggregate), and makes the first
  bias a row; it writes none of the other buffers the rest of the program reads.
-/
import proofs.«152044_j28544352649461_2_alg».proof.Proof.KernelFold3
import proofs.«152044_j28544352649461_2_alg».proof.Proof.Region0

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes keeps its contents: each operation's one result buffer is
    another buffer. -/
local macro "not_written" b:term:max ops:term:max V:term:max : tactic => `(tactic| (
  refine StableHlo.after_of_forall_not_mem (b := Proc.devRef .tc $b) $ops $V (List.forall_iff_forall_mem.mp ?_)
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## After the first region -/

theorem W4_feat : W4 (F := Ideal) m ρ c (Proc.devRef .tc main_v16)
    = Cert.Spec.scaledProduct (a := 50000) (k := 768) (n := 128) (m ((c.tc : Thread nD τ).loc main_arg0)) (m ((c.tc : Thread nD τ).loc main_arg2)) (disCol (m ((c.tc : Thread nD τ).loc main_arg1))) := by
  refine (W4_arr m ρ c 3).trans ((Cert.KernelIdeal.Region0.final (V3 (F := Ideal) m ρ) c).trans ?_)
  show Cert.Spec.scaledProduct (a := 50000) (k := 768) (n := 128) (W3 (F := Ideal) m ρ c (Proc.devRef .tc main_arg0))
    (W3 (F := Ideal) m ρ c (Proc.devRef .tc main_arg2)) (W3 (F := Ideal) m ρ c (Proc.devRef .tc main_v15)) = _
  rw [W3_arg0, W3_arg2, W3_dis]

theorem W4_src : W4 (F := Ideal) m ρ c (Proc.devRef .tc main_v5) = srcIdx (m ((c.tc : Thread nD τ).loc main_arg1)) :=
  (W4_of_ne m ρ c main_v5 (by decide)).trans (W3_src m ρ c)
theorem W4_dst : W4 (F := Ideal) m ρ c (Proc.devRef .tc main_v6) = dstIdx (m ((c.tc : Thread nD τ).loc main_arg1)) :=
  (W4_of_ne m ρ c main_v6 (by decide)).trans (W3_dst m ρ c)
/-- The factor's column is one of the region's input arrays: it ends as entered. -/
theorem W4_dis : W4 (F := Ideal) m ρ c (Proc.devRef .tc main_v15) = disCol (m ((c.tc : Thread nD τ).loc main_arg1)) :=
  (W4_arr m ρ c 2).trans ((((dat0 (V3 (F := Ideal) m ρ) c).arrAt_in 2 rfl _).trans (A_eq0 (V3 (F := Ideal) m ρ) c 2)).trans (W3_dis m ρ c))
theorem W4_arg3 : W4 (F := Ideal) m ρ c (Proc.devRef .tc main_arg3) = m ((c.tc : Thread nD τ).loc main_arg3) :=
  (W4_of_ne m ρ c main_arg3 (by decide)).trans (W3_arg3 m ρ c)
theorem W4_arg4 : W4 (F := Ideal) m ρ c (Proc.devRef .tc main_arg4) = m ((c.tc : Thread nD τ).loc main_arg4) :=
  (W4_of_ne m ρ c main_arg4 (by decide)).trans (W3_arg4 m ρ c)
theorem W4_arg5 : W4 (F := Ideal) m ρ c (Proc.devRef .tc main_arg5) = m ((c.tc : Thread nD τ).loc main_arg5) :=
  (W4_of_ne m ρ c main_arg5 (by decide)).trans (W3_arg5 m ρ c)

/-! ## When the second region is entered -/

set_option maxHeartbeats 1000000 in
theorem W5_agg : W5 (F := Ideal) m ρ c (Proc.devRef .tc main_v26) = agg1 (m ((c.tc : Thread nD τ).loc main_arg0)) (m ((c.tc : Thread nD τ).loc main_arg1)) (m ((c.tc : Thread nD τ).loc main_arg2)) := by
  have hf := W4_feat m ρ c
  have hs := W4_src m ρ c
  have hd := W4_dst m ρ c
  show StableHlo.after hostOps1 (W4 (F := Ideal) m ρ c) (Proc.devRef .tc main_v26) = _
  generalize W4 (F := Ideal) m ρ c = W at hf hs hd ⊢
  dsimp only [hostOps1]
  after_results
  rw [hf, hs, hd]
  unfold agg1 dstCol srcCol
  rfl

theorem W5_bias : W5 (F := Ideal) m ρ c (Proc.devRef .tc main_v27) = biasRow1 (m ((c.tc : Thread nD τ).loc main_arg3)) := by
  have h3 := W4_arg3 m ρ c
  show StableHlo.after hostOps1 (W4 (F := Ideal) m ρ c) (Proc.devRef .tc main_v27) = _
  generalize W4 (F := Ideal) m ρ c = W at h3 ⊢
  dsimp only [hostOps1]
  after_results
  rw [h3]
  rfl

theorem W5_src : W5 (F := Ideal) m ρ c (Proc.devRef .tc main_v5) = srcIdx (m ((c.tc : Thread nD τ).loc main_arg1)) :=
  calc W5 (F := Ideal) m ρ c (Proc.devRef .tc main_v5)
    _ = W4 (F := Ideal) m ρ c (Proc.devRef .tc main_v5) := by not_written main_v5 hostOps1 (W4 (F := Ideal) m ρ c)
    _ = srcIdx (m ((c.tc : Thread nD τ).loc main_arg1)) := W4_src m ρ c

theorem W5_dst : W5 (F := Ideal) m ρ c (Proc.devRef .tc main_v6) = dstIdx (m ((c.tc : Thread nD τ).loc main_arg1)) :=
  calc W5 (F := Ideal) m ρ c (Proc.devRef .tc main_v6)
    _ = W4 (F := Ideal) m ρ c (Proc.devRef .tc main_v6) := by not_written main_v6 hostOps1 (W4 (F := Ideal) m ρ c)
    _ = dstIdx (m ((c.tc : Thread nD τ).loc main_arg1)) := W4_dst m ρ c

theorem W5_dis : W5 (F := Ideal) m ρ c (Proc.devRef .tc main_v15) = disCol (m ((c.tc : Thread nD τ).loc main_arg1)) :=
  calc W5 (F := Ideal) m ρ c (Proc.devRef .tc main_v15)
    _ = W4 (F := Ideal) m ρ c (Proc.devRef .tc main_v15) := by not_written main_v15 hostOps1 (W4 (F := Ideal) m ρ c)
    _ = disCol (m ((c.tc : Thread nD τ).loc main_arg1)) := W4_dis m ρ c

theorem W5_arg4 : W5 (F := Ideal) m ρ c (Proc.devRef .tc main_arg4) = m ((c.tc : Thread nD τ).loc main_arg4) :=
  calc W5 (F := Ideal) m ρ c (Proc.devRef .tc main_arg4)
    _ = W4 (F := Ideal) m ρ c (Proc.devRef .tc main_arg4) := by not_written main_arg4 hostOps1 (W4 (F := Ideal) m ρ c)
    _ = m ((c.tc : Thread nD τ).loc main_arg4) := W4_arg4 m ρ c

theorem W5_arg5 : W5 (F := Ideal) m ρ c (Proc.devRef .tc main_arg5) = m ((c.tc : Thread nD τ).loc main_arg5) :=
  calc W5 (F := Ideal) m ρ c (Proc.devRef .tc main_arg5)
    _ = W4 (F := Ideal) m ρ c (Proc.devRef .tc main_arg5) := by not_written main_arg5 hostOps1 (W4 (F := Ideal) m ρ c)
    _ = m ((c.tc : Thread nD τ).loc main_arg5) := W4_arg5 m ρ c

end Cert.KernelIdeal.Stages

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«152044_j28544352649461_2_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.Region1.lean ====
/-
  The second kernel of a two-layer graph convolution, as one function of whole arrays.

  The kernel walks the 50000 nodes in 25 blocks of 2000 rows.  For a block of the aggregate `agg` ([2000, 128]), the
  matching block of the per-node factor `d` ([2000, 1]), the bias row `b` ([1, 128]) and the weight matrix `w`
  ([128, 2]) it leaves, at row `p` and column `q` of the block,
        (Σ_j max (agg[p, j] · d[p] + b[j]) 0 · w[j, q]) · d[p].
  Entry (p, q) depends on row `p` of the aggregate and of the factor only, so the 25 blocks written back are the
  restrictions of ONE function of the four whole arrays — `Cert.Spec.hiddenScaledProduct` — and, since the blocks
  cover all 50000 rows, the output array ends holding that function.
-/
import proofs.«152044_j28544352649461_2_alg».proof.Proof.Gen.KernelIdeal.Frame
import proofs.«152044_j28544352649461_2_alg».proof.Proof.Spec
import proofs.«152044_j28544352649461_2_alg».proof.Proof.LibPlainMatmul
import proofs.«152044_j28544352649461_2_alg».proof.Proof.LibKeepdims
import proofs.«152044_j28544352649461_2_alg».proof.Proof.LibRowReads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region1

open Idealize.ShloMosaic Idealize.ShloMosaic.ValueIdx Idealize.ShloMosaic.TcCoe Idealize.SL.Sem
open Cert.KernelIdeal Cert.KernelIdeal.Gen
open Idealize.ShloMosaic.Pipeline (Dat)

/-! ## The block computation at an entry -/

/-- The hidden features of a block at (p, j): the aggregate's entry scaled by the row's factor, plus the bias of
    column j, clipped below at zero.  The recasts are to the operands' own shapes, the column of factors is spread
    along the row and the bias row along the column. -/
theorem hidden_apply (x0 : Vec Ideal S2000x128 .f32) (x1 : Vec Ideal S2000x1 .f32) (x2 : Vec Ideal S1x128 .f32)
    (p : Fin 2000) (j : Fin 128) :
    maximumf (addf (mulf (shapeCast S2000x128 x0 shapeCasts_S2000x128_S2000x128)
          (broadcastTo S2000x128 (shapeCast S2000x1 x1 shapeCasts_S2000x1_S2000x1) broadcasts_S2000x1_S2000x128))
        (broadcastTo S2000x128 (shapeCast S1x128 x2 shapeCasts_S1x128_S1x128) broadcasts_S1x128_S2000x128))
      (broadcast S2000x128 (Scalar.ofBits (F := Ideal) .f32 0x00000000#32)) (ix2 p j)
      = max (x0 (ix2 p j) * x1 (ix2 p (0 : Fin 1)) + x2 (ix2 (0 : Fin 1) j)) 0 := by
  rw [maximumf_apply, addf_apply, mulf_apply, broadcast_apply]
  rw [shapeCast_self x0, shapeCast_self x1]
  rw [Cert.LibKeepdims.broadcastTo_a1_ac_apply x1 broadcasts_S2000x1_S2000x128 p j]
  rw [Cert.LibRowReads.bias_row_apply x2 shapeCasts_S1x128_S1x128 broadcasts_S1x128_S2000x128 p j]
  exact congrArg (max _) Ideal.ofBits_zero_f32

/-- Entry (p, q) of what the kernel stores for a block: the hidden features of row p against column q of the
    weights (a change of float format is the identity on the extended reals, the accumulator is zero), times the
    row's factor. -/
theorem payload_apply (x0 : Vec Ideal S2000x128 .f32) (x1 : Vec Ideal S2000x1 .f32) (x2 : Vec Ideal S1x128 .f32)
    (x3 : Vec Ideal S128x2 .f32) (x4 : Vec Ideal S2000x1 .f32) (p : Fin 2000) (q : Fin 2) :
    k1_pay1 (F := Ideal) x0 x1 x2 x3 x4 (ix2 p q)
      = (∑ j : Fin 128, max (x0 (ix2 p j) * x1 (ix2 p (0 : Fin 1)) + x2 (ix2 (0 : Fin 1) j)) 0 * x3 (ix2 j q))
        * x4 (ix2 p (0 : Fin 1)) := by
  unfold k1_pay1
  rw [mulf_apply]
  refine congrArg₂ (· * ·) ?_ ?_
  · refine (matmul_plain_zero_apply dot_S2000x128_S128x2_S2000x2_1_0_0_1_n_n rfl none _ _ p q).trans ?_
    refine Finset.sum_congr rfl fun j _ => ?_
    rw [truncf_apply, truncf_apply]
    exact congrArg (· * x3 (ix2 j q)) (hidden_apply x0 x1 x2 p j)
  · rw [shapeCast_self x4]
    exact Cert.LibKeepdims.broadcastTo_a1_ac_apply x4 broadcasts_S2000x1_S2000x2 p q

/-! ## A block of the kernel's output as a block of the whole-array function -/

/-- Let `x0` be rows `2000 b … 2000 b + 1999` of the aggregate `A`, `x1` the same rows of the factor column `D`,
    `x2` the bias row and `x3` the weights.  Then what the kernel stores at an entry `j` of the block is the
    whole-array function at the entry `i` of the array in row `2000 b + j 0` and column `j 1`: the entry depends on
    row `j 0` of the two row blocks only. -/
theorem block_apply (A : (⟨2, ![50000, 128]⟩ : Shape).Idx → EReal) (D : (⟨2, ![50000, 1]⟩ : Shape).Idx → EReal)
    (B : (⟨2, ![1, 128]⟩ : Shape).Idx → EReal) (W : (⟨2, ![128, 2]⟩ : Shape).Idx → EReal)
    (x0 : Vec Ideal S2000x128 .f32) (x1 : Vec Ideal S2000x1 .f32) (x2 : Vec Ideal S1x128 .f32) (x3 : Vec Ideal S128x2 .f32)
    (b : ℕ) (hb : b ≤ 24)
    (h0 : ∀ (p : Fin 2000) (k : Fin 128) (r : Fin 50000), r.val = b * 2000 + p.val → x0 (ix2 p k) = A (ix2 r k))
    (h1 : ∀ (p : Fin 2000) (r : Fin 50000), r.val = b * 2000 + p.val → x1 (ix2 p (0 : Fin 1)) = D (ix2 r (0 : Fin 1)))
    (h2 : x2 = B) (h3 : x3 = W)
    (j : S2000x2.Idx) (i : S50000x2.Idx) (hi0 : (i 0).val = b * 2000 + (j 0).val) (hi1 : (i 1).val = (j 1).val) :
    k1_pay1 (F := Ideal) x0 x1 x2 x3 x1 j
      = Cert.Spec.hiddenScaledProduct (a := 50000) (k := 128) (n := 2) A D B W i := by
  obtain ⟨p, q, rfl⟩ : ∃ (p : Fin 2000) (q : Fin 2), j = ix2 p q := ⟨j 0, j 1, eq_ix2 j⟩
  obtain ⟨r, s, rfl⟩ : ∃ (r : Fin 50000) (s : Fin 2), i = ix2 r s := ⟨i 0, i 1, eq_ix2 i⟩
  have hr : r.val = b * 2000 + p.val := hi0
  obtain rfl : s = q := Fin.ext hi1
  subst h2 h3
  rw [payload_apply, Cert.Spec.hiddenScaledProduct_apply, h1 p r hr]
  refine congrArg (· * D (ix2 r (0 : Fin 1))) (Finset.sum_congr rfl fun k _ => ?_)
  rw [h0 p k r hr]

/-! ## The printed index maps, over the 25 grid points -/

theorem zero_offsets : (![0, 0] : Fin 2 → Nat) = fun _ => 0 := funext fun a => by fin_cases a <;> rfl

/-- The aggregate's and the factor's row blocks move with the output's row block; the bias row and the weights stay at
    block (0, 0); the output's row block index is at most 24 and its column block index is 0. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 24 ∧ win1_4.index t (1 : Fin 2) = 0 :=
  (by decide +kernel : ∀ t : Fin grid1.N, _)

/-- Every one of the 25 row blocks is some grid point's. -/
theorem index_onto : ∀ q0 : Fin 25, ∃ t : Fin cfg1.N, win1_4.index t = ![q0.val, 0] :=
  (by decide +kernel : ∀ q0 : Fin 25, ∃ t : Fin grid1.N, win1_4.index t = ![q0.val, 0])

/-! ## What a grid point writes back -/

/-- What point `t` writes back is block `t` of the whole-array function of the arrays as the region finds them. -/
theorem flushed_eq (V : (c : Dev nD) → (b : Ref sig .tc) → Buf (Elt Ideal) ((c : Thread nD τ).loc b)) (c : Dev nD)
    (t : Fin cfg1.N) :
    (Gen.dat1 (F := Ideal) V c).flushed 4 t = ((cfg1.win 4).blk t).view.read (Elt Ideal)
      (Cert.Spec.hiddenScaledProduct (a := 50000) (k := 128) (n := 2) (V c main_v26) (V c main_v15) (V c main_v27) (V c main_arg4)) := by
  show (cfg1.win 4).cut (grid1.coords t) ((Gen.dat1 V c).after 4 t) = _
  rw [Gen.after1_4]
  unfold Gen.out1_4
  rw [View.canon_unit_zero zero_offsets]
  simp only [View.ld_unit_zero (S := S2000x128) zero_offsets, View.ld_unit_zero (S := S2000x1) zero_offsets,
    View.ld_unit_zero (S := S1x128) zero_offsets, View.ld_unit_zero (S := S128x2) zero_offsets]
  obtain ⟨e00, e01, e10, e11, e20, e21, e30, e31, e4, e41⟩ := index_facts t
  funext j
  refine block_apply (V c main_v26) (V c main_v15) (V c main_v27) (V c main_arg4)
    (iblk1 V c 0 t) (iblk1 V c 1 t) (iblk1 V c 2 t) (iblk1 V c 3 t) (win1_4.index t (0 : Fin 2)) e4 ?_ ?_ ?_ ?_ j _ ?_ ?_
  · intro p k r hr
    show V c main_v26 (((cfg1.win 0).blk t).view.emb (ix2 p k)) = V c main_v26 (ix2 r k)
    refine congrArg (V c main_v26) (funext fun a => Fin.ext ?_)
    match a with
    | ⟨0, _⟩ => show win1_0.index t (0 : Fin 2) * 2000 + 1 * p.val = r.val; omega
    | ⟨1, _⟩ => show win1_0.index t (1 : Fin 2) * 128 + 1 * k.val = k.val; omega
  · intro p r hr
    show V c main_v15 (((cfg1.win 1).blk t).view.emb (ix2 p (0 : Fin 1))) = V c main_v15 (ix2 r (0 : Fin 1))
    refine congrArg (V c main_v15) (funext fun a => Fin.ext ?_)
    match a with
    | ⟨0, _⟩ => show win1_1.index t (0 : Fin 2) * 2000 + 1 * p.val = r.val; omega
    | ⟨1, _⟩ => show win1_1.index t (1 : Fin 2) * 1 + 1 * 0 = 0; omega
  · funext y
    show V c main_v27 (((cfg1.win 2).blk t).view.emb y) = V c main_v27 y
    refine congrArg (V c main_v27) (funext fun a => Fin.ext ?_)
    match a with
    | ⟨0, _⟩ => show win1_2.index t (0 : Fin 2) * 1 + 1 * (y 0).val = (y 0).val; omega
    | ⟨1, _⟩ => show win1_2.index t (1 : Fin 2) * 128 + 1 * (y 1).val = (y 1).val; omega
  · funext y
    show V c main_arg4 (((cfg1.win 3).blk t).view.emb y) = V c main_arg4 y
    refine congrArg (V c main_arg4) (funext fun a => Fin.ext ?_)
    match a with
    | ⟨0, _⟩ => show win1_3.index t (0 : Fin 2) * 128 + 1 * (y 0).val = (y 0).val; omega
    | ⟨1, _⟩ => show win1_3.index t (1 : Fin 2) * 2 + 1 * (y 1).val = (y 1).val; omega
  · show win1_4.index t (0 : Fin 2) * 2000 + 1 * (j 0).val = win1_4.index t (0 : Fin 2) * 2000 + (j 0).val; omega
  · show win1_4.index t (1 : Fin 2) * 2 + 1 * (j 1).val = (j 1).val; omega

/-! ## The blocks cover the array -/

/-- An index of the output array is in point `t`'s block iff each coordinate is in the block's range on its axis. -/
theorem mem_blk (t : Fin cfg1.N) (i : S50000x2.Idx) :
    i ∈ ((cfg1.win 4).blk t).view.set ↔ ∀ a : Fin 2, win1_4.index t a * S2000x2.size a ≤ (i a).val
      ∧ (i a).val < win1_4.index t a * S2000x2.size a + S2000x2.size a := by
  show i ∈ ((View.whole main_v28).slice (win1_4.rect t)).set ↔ _
  rw [View.set_slice_whole, Rect.mem_set_unit]
  exact Iff.rfl

/-- Row `r` of the array is in the block of the point whose row block index is `r / 2000`: all 50000 rows are covered. -/
theorem cover (i : S50000x2.Idx) :
    ∃ t : Fin cfg1.N, (cfg1.win 4).flush t = true ∧ i ∈ ((cfg1.win 4).blk t).view.set := by
  have hi0 : (i 0).val < 50000 := (i 0).isLt
  have hi1 : (i 1).val < 2 := (i 1).isLt
  obtain ⟨t, ht⟩ := index_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 2 ≤ (i 1).val ∧ (i 1).val < win1_4.index t (1 : Fin 2) * 2 + 2
    omega

/-! ## The output array after the region -/

/-- The output array ends holding the whole-array function of the four arrays the region reads. -/
theorem final (V : (c : Dev nD) → (b : Ref sig .tc) → Buf (Elt Ideal) ((c : Thread nD τ).loc b)) (c : Dev nD) :
    (Gen.dat1 (F := Ideal) V c).arrAt 4 cfg1.N
      = Cert.Spec.hiddenScaledProduct (a := 50000) (k := 128) (n := 2) (V c main_v26) (V c main_v15) (V c main_v27) (V c main_arg4) :=
  (Gen.dat1 (F := Ideal) V c).arrAt_eq_of_cover 4 _ (fun t _ => flushed_eq V c t) cover

end Cert.KernelIdeal.Region1

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibSoftmaxRows.lean ====
/-
  The softmax of every row of an f32 matrix, as the vector operations a kernel body spells it with, read at an entry
  on the extended reals, for any extents.

  For an [a, b] matrix s,  m = max(s, axis=-1, keepdims=True); p = exp(s - m); p / sum(p, axis=-1, keepdims=True)  is:
  a maximum over the last axis started at minus infinity, kept as a column and spread back over the rows; a
  subtraction and an exponential; a sum over the last axis started at zero, kept as a column and spread back; a
  division; and, where a product in a narrower format follows, a narrowing, which is the identity on the extended
  reals.  Read at (r, c) the chain is
      exp (s[r, c] − max_c' s[r, c']) / Σ_c'' exp (s[r, c''] − max_c' s[r, c']).
  The same function is written once over plain matrices (`rowMax`, `expShift`, `softmax`), so that the other side of
  a comparison can be shown equal to it too; a host program that takes the row maximum once more against minus
  infinity changes nothing (`max_fold_max`).
-/
import proofs.«152044_j28544352649461_2_alg».proof.Proof.LibKeepdims
import proofs.«152044_j28544352649461_2_alg».proof.Proof.LibUnitAxes

noncomputable section

open scoped BigOperators

namespace Cert.LibSoftmaxRows

open Idealize.ShloMosaic Idealize.ShloMosaic.ValueIdx

/-- An a × b matrix of extended reals. -/
abbrev Mat (a b : ℕ) : Type := Fin a → Fin b → EReal

/-- A rank-2 vector value as a matrix. -/
abbrev mat {a b : ℕ} {φ : FTy} (v : FVec Ideal ⟨2, ![a, b]⟩ φ) : Mat a b := fun r e => v (ix2 r e)

/-- The f32 word of minus infinity, where a row maximum starts. -/
abbrev negInf : EReal := Ideal.ofBits .f32 0xFF800000#32

variable {a b : ℕ}

/-- The maximum of row r, starting from minus infinity. -/
def rowMax (s : Mat a b) (r : Fin a) : EReal := (Finset.univ : Finset (Fin b)).fold max negInf (fun c => s r c)

/-- exp (s[r, c] − max_c' s[r, c']). -/
def expShift (s : Mat a b) : Mat a b := fun r c => Ideal.exp (s r c - rowMax s r)

/-- The softmax of every row. -/
def softmax (s : Mat a b) : Mat a b := fun r c => Ideal.div (expShift s r c) (∑ c', expShift s r c')

/-- A running maximum is at least its starting value, so taking the maximum with that value again changes nothing. -/
theorem max_fold_max (z : EReal) (f : Fin b → EReal) :
    max z ((Finset.univ : Finset (Fin b)).fold max z f) = (Finset.univ : Finset (Fin b)).fold max z f :=
  max_eq_right ((Finset.le_fold_max z).2 (Or.inl le_rfl))

variable (s : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hbr : (⟨2, ![a, 1]⟩ : Shape).Broadcasts ⟨2, ![a, b]⟩) (hb : FTy.bits .bf16 < FTy.bits .f32)

/-- The row maxima (from minus infinity), kept as a column and spread back over the rows. -/
def rowMaxSpread : FVec Ideal ⟨2, ![a, b]⟩ .f32 :=
  broadcastTo ⟨2, ![a, b]⟩ (shapeCast ⟨2, ![a, 1]⟩ (multiReduction .maximumf [1] ⟨1, ![a]⟩ s 0xFF800000#32 hr (.inl rfl) rfl) hc) hbr

/-- exp (s − row maximum). -/
def expShiftVec : FVec Ideal ⟨2, ![a, b]⟩ .f32 := exp (subf s (rowMaxSpread s hr hc hbr))

/-- The exponentials divided by their row sums (from zero, kept as a column and spread back). -/
def quotVec : FVec Ideal ⟨2, ![a, b]⟩ .f32 :=
  divf (expShiftVec s hr hc hbr)
    (broadcastTo ⟨2, ![a, b]⟩ (shapeCast ⟨2, ![a, 1]⟩
      (multiReduction .add [1] ⟨1, ![a]⟩ (expShiftVec s hr hc hbr) 0x00000000#32 hr (.inl rfl) rfl) hc) hbr)

/-- The same, narrowed to bf16 for the product that follows. -/
def softmaxVec : FVec Ideal ⟨2, ![a, b]⟩ .bf16 := truncf .bf16 (quotVec s hr hc hbr) hb

theorem rowMaxSpread_apply (r : Fin a) (c : Fin b) : rowMaxSpread s hr hc hbr (ix2 r c) = rowMax (mat s) r :=
  (Cert.LibKeepdims.broadcastTo_a1_ac_apply _ hbr r c).trans
    ((Cert.LibKeepdims.shapeCast_a_a1_apply _ hc r 0).trans
      (Cert.LibUnitAxes.multiReduction_maximumf_lastAxis_apply s 0xFF800000#32 hr (.inl rfl) rfl r))

theorem expShiftVec_apply (r : Fin a) (c : Fin b) : expShiftVec s hr hc hbr (ix2 r c) = expShift (mat s) r c := by
  show Ideal.exp (s (ix2 r c) - rowMaxSpread s hr hc hbr (ix2 r c)) = _
  rw [rowMaxSpread_apply]
  rfl

theorem quotVec_apply (r : Fin a) (c : Fin b) : quotVec s hr hc hbr (ix2 r c) = softmax (mat s) r c := by
  show Ideal.div (expShiftVec s hr hc hbr (ix2 r c))
      (broadcastTo ⟨2, ![a, b]⟩ (shapeCast ⟨2, ![a, 1]⟩
        (multiReduction .add [1] ⟨1, ![a]⟩ (expShiftVec s hr hc hbr) 0x00000000#32 hr (.inl rfl) rfl) hc) hbr (ix2 r c)) = _
  rw [Cert.LibKeepdims.rowSum_keepdims_broadcast_apply (expShiftVec s hr hc hbr) 0x00000000#32 hr (.inl rfl) rfl hc hbr r c,
    expShiftVec_apply]
  unfold softmax
  exact congrArg (Ideal.div (expShift (mat s) r c)) (Finset.sum_congr rfl fun f _ => expShiftVec_apply s hr hc hbr r f)

theorem softmaxVec_apply (r : Fin a) (c : Fin b) : softmaxVec s hr hc hbr hb (ix2 r c) = softmax (mat s) r c :=
  quotVec_apply s hr hc hbr r c

end Cert.LibSoftmaxRows

end
-- ==== Proof.Region2.lean ====
/-
  The third region of the idealized kernel: the bias and the row softmax of the second layer.

  The region's array of aggregates agg is [50000, 2], the per-node factor d a column [50000, 1], the bias b a row
  [1, 2].  The grid has 25 points; point t works on rows 2000 t … 2000 t + 1999 of agg, of d and of the output, and on
  the whole bias row.  On its [2000, 2] block the body computes  s = agg · d + b  (the factor column and the bias row
  spread over the block), the row maxima of s from minus infinity — taken once more against minus infinity, which
  changes nothing —, exp (s − max), the row sums from zero, and the quotient.  So entry (p, q) of the block is the softmax
  of the row  e ↦ agg[r, e] · d[r, 0] + b[0, e]  at q, with r = 2000 t + p the row of the arrays that row p of the block is.
  The 25 row blocks tile the output, hence the output array ends holding, at every (r, q), the softmax of that row:
  `Cert.Spec.scaledSoftmax agg d b`.

  In order: the body's vector operations read at an entry (`maxSpread_apply`, `expShift_apply`, `quot_apply`,
  `scaled_apply`, `pay_apply`); the block index maps decided over the 25 points (`idx_facts`, `idx_onto`); what a
  point writes back as a block of the whole-array function (`softmax_block`, `flushed_eq`); the blocks cover the array
  (`mem_blk`, `cover`); the array (`final`).
-/
import proofs.«152044_j28544352649461_2_alg».proof.Proof.Gen.KernelIdeal.Frame
import proofs.«152044_j28544352649461_2_alg».proof.Proof.Spec
import proofs.«152044_j28544352649461_2_alg».proof.Proof.LibSoftmaxRows
import proofs.«152044_j28544352649461_2_alg».proof.Proof.LibUnitAxes
import proofs.«152044_j28544352649461_2_alg».proof.Proof.LibKeepdims
import proofs.«152044_j28544352649461_2_alg».proof.Proof.LibRowReads
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Idealize.ShloMosaic.TcCoe Idealize.SL.Sem
open Idealize.ShloMosaic.Pipeline (Dat)

namespace Cert.KernelIdeal.Region2

open Cert.KernelIdeal Cert.KernelIdeal.Gen

/-! ## The body's payload at an entry -/

/-- The row maxima of a block from minus infinity, taken once more against minus infinity spread over the column,
    kept as a column and spread back over the rows. -/
abbrev maxSpread (s : FVec Ideal S2000x2 .f32) : FVec Ideal S2000x2 .f32 :=
  broadcastTo S2000x2 (shapeCast S2000x1
    (maximumf (broadcast S2000 (Scalar.ofBits (F := Ideal) .f32 0xFF800000#32))
      (multiReduction .maximumf [1] S2000 s 0xFF800000#32 reduces_S2000x2_S2000 (.inl rfl) rfl))
    shapeCasts_S2000_S2000x1) broadcasts_S2000x1_S2000x2

/-- At (p, q) it is the maximum of row p from minus infinity: a running maximum is at least its starting value, so
    the second maximum against that value changes nothing. -/
theorem maxSpread_apply (s : FVec Ideal S2000x2 .f32) (p : Fin 2000) (q : Fin 2) :
    maxSpread s (ix2 p q) = Cert.Spec.rowMax (fun e : Fin 2 => s (ix2 p e)) := by
  refine (Cert.LibKeepdims.broadcastTo_a1_ac_apply _ broadcasts_S2000x1_S2000x2 p q).trans ?_
  refine (Cert.LibKeepdims.shapeCast_a_a1_apply _ shapeCasts_S2000_S2000x1 p 0).trans ?_
  show max (Ideal.ofBits .f32 0xFF800000#32)
      (multiReduction .maximumf [1] S2000 s 0xFF800000#32 reduces_S2000x2_S2000 (.inl rfl) rfl (ix1 p)) = _
  rw [Cert.LibUnitAxes.multiReduction_maximumf_lastAxis_apply s 0xFF800000#32 reduces_S2000x2_S2000 (.inl rfl) rfl p]
  exact Cert.LibSoftmaxRows.max_fold_max _ _

/-- exp (s − row maximum). -/
abbrev expShift (s : FVec Ideal S2000x2 .f32) : FVec Ideal S2000x2 .f32 := exp (subf s (maxSpread s))

theorem expShift_apply (s : FVec Ideal S2000x2 .f32) (p : Fin 2000) (e : Fin 2) :
    expShift s (ix2 p e) = Ideal.exp (s (ix2 p e) - Cert.Spec.rowMax (fun e' : Fin 2 => s (ix2 p e'))) :=
  congrArg (fun m => Ideal.exp (s (ix2 p e) - m)) (maxSpread_apply s p e)

/-- The exponentials divided by their row sums (from zero, kept as a column and spread back): at (p, q) the softmax
    of row p at q. -/
theorem quot_apply (s : FVec Ideal S2000x2 .f32) (p : Fin 2000) (q : Fin 2) :
    (divf (expShift s) (broadcastTo S2000x2 (shapeCast S2000x1
        (multiReduction .add [1] S2000 (expShift s) 0x00000000#32 reduces_S2000x2_S2000 (.inl rfl) rfl)
        shapeCasts_S2000_S2000x1) broadcasts_S2000x1_S2000x2) : FVec Ideal S2000x2 .f32) (ix2 p q)
      = Cert.Spec.rowSoftmax (fun e : Fin 2 => s (ix2 p e)) q := by
  refine (congrArg₂ Ideal.div (expShift_apply s p q)
    ((Cert.LibKeepdims.rowSum_keepdims_broadcast_apply (expShift s) 0x00000000#32 reduces_S2000x2_S2000 (.inl rfl) rfl
      shapeCasts_S2000_S2000x1 broadcasts_S2000x1_S2000x2 p q).trans
      (Finset.sum_congr rfl fun f _ => expShift_apply s p f))).trans ?_
  rfl

/-- Row p of the aggregate block, every entry multiplied by the row's factor, plus the bias row. -/
abbrev scaledRow (x0 : Vec Ideal S2000x2 .f32) (x1 : Vec Ideal S2000x1 .f32) (x2 : Vec Ideal S1x2 .f32) (p : Fin 2000) :
    Fin 2 → EReal :=
  fun e => x0 (ix2 p e) * x1 (ix2 p (0 : Fin 1)) + x2 (ix2 (0 : Fin 1) e)

/-- The block times the factor column spread over the rows, plus the bias row spread over the rows, at (p, e). -/
theorem scaled_apply (x0 : Vec Ideal S2000x2 .f32) (x1 : Vec Ideal S2000x1 .f32) (x2 : Vec Ideal S1x2 .f32) (p : Fin 2000) (e : Fin 2) :
    (addf (mulf (shapeCast S2000x2 x0 shapeCasts_S2000x2_S2000x2)
        (broadcastTo S2000x2 (shapeCast S2000x1 x1 shapeCasts_S2000x1_S2000x1) broadcasts_S2000x1_S2000x2))
      (broadcastTo S2000x2 (shapeCast S1x2 x2 shapeCasts_S1x2_S1x2) broadcasts_S1x2_S2000x2) : FVec Ideal S2000x2 .f32) (ix2 p e)
      = scaledRow x0 x1 x2 p e := by
  show shapeCast S2000x2 x0 shapeCasts_S2000x2_S2000x2 (ix2 p e)
      * broadcastTo S2000x2 (shapeCast S2000x1 x1 shapeCasts_S2000x1_S2000x1) broadcasts_S2000x1_S2000x2 (ix2 p e)
      + broadcastTo S2000x2 (shapeCast S1x2 x2 shapeCasts_S1x2_S1x2) broadcasts_S1x2_S2000x2 (ix2 p e) = _
  rw [shapeCast_self x0, shapeCast_self x1, Cert.LibKeepdims.broadcastTo_a1_ac_apply x1 broadcasts_S2000x1_S2000x2 p e,
    Cert.LibRowReads.bias_row_apply x2 shapeCasts_S1x2_S1x2 broadcasts_S1x2_S2000x2 p e]

/-- THE PAYLOAD AT AN ENTRY: the softmax of the scaled-and-biased row. -/
theorem pay_apply (x0 : Vec Ideal S2000x2 .f32) (x1 : Vec Ideal S2000x1 .f32) (x2 : Vec Ideal S1x2 .f32) (p : Fin 2000) (q : Fin 2) :
    k2_pay1 (F := Ideal) x0 x1 x2 (ix2 p q) = Cert.Spec.rowSoftmax (scaledRow x0 x1 x2 p) q := by
  unfold k2_pay1
  refine (quot_apply _ p q).trans ?_
  exact congrArg (fun v => Cert.Spec.rowSoftmax v q) (funext fun e => scaled_apply x0 x1 x2 p e)

/-! ## The index maps, decided over the grid -/

theorem zero_off : (![0, 0] : Fin 2 → Nat) = fun _ => 0 := funext fun a => by fin_cases a <;> rfl

/-- Point t's blocks: the aggregate's, the factor column's and the output's are all row block t of their arrays (the
    one block of columns), the bias row's is the whole array, and the row block stays within the 25. -/
theorem idx_facts : ∀ t : Fin cfg2.N,
    win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (0 : Fin 2) ≤ 24
    ∧ win2_3.index t (1 : Fin 2) = 0 :=
  (by decide +kernel : ∀ t : Fin grid2.N, _)

/-- Every one of the 25 row blocks is some point's. -/
theorem idx_onto : ∀ r : Fin 25, ∃ t : Fin cfg2.N, win2_3.index t = ![r.val, 0] :=
  (by decide +kernel : ∀ r : Fin 25, ∃ t : Fin grid2.N, win2_3.index t = ![r.val, 0])

/-! ## What a point writes back -/

/-- The softmax of a block's scaled-and-biased row p is the whole-array function at the row r the block's row p is,
    once each input block reads its array at row r (the bias row at its only row). -/
theorem softmax_block (A : S50000x2.Idx → EReal) (D : S50000x1.Idx → EReal) (B : S1x2.Idx → EReal)
    (x0 : Vec Ideal S2000x2 .f32) (x1 : Vec Ideal S2000x1 .f32) (x2 : Vec Ideal S1x2 .f32)
    (p : Fin 2000) (q : Fin 2) (r : Fin 50000) (i : S50000x2.Idx) (hi : i = ix2 r q)
    (h0 : ∀ e : Fin 2, x0 (ix2 p e) = A (ix2 r e)) (h1 : x1 (ix2 p (0 : Fin 1)) = D (ix2 r (0 : Fin 1)))
    (h2 : ∀ e : Fin 2, x2 (ix2 (0 : Fin 1) e) = B (ix2 (0 : Fin 1) e)) :
    Cert.Spec.rowSoftmax (scaledRow x0 x1 x2 p) q = Cert.Spec.scaledSoftmax (a := 50000) (n := 2) A D B i := by
  subst hi
  rw [Cert.Spec.scaledSoftmax_apply]
  refine congrArg (fun v => Cert.Spec.rowSoftmax v q) (funext fun e => ?_)
  show x0 (ix2 p e) * x1 (ix2 p (0 : Fin 1)) + x2 (ix2 (0 : Fin 1) e) = _
  rw [h0 e, h1, h2 e]

variable (V : (c : Dev nD) → (b : Ref sig .tc) → Buf (Elt Ideal) ((c : Thread nD τ).loc b))

/-- WHAT POINT t WRITES BACK is block t of the softmax of every row of agg · d + b: row p of the block is row
    2000 t + p of the arrays, and the bias row is the same for every block. -/
theorem flushed_eq (c : Dev nD) (t : Fin cfg2.N) :
    (Gen.dat2 (F := Ideal) V c).flushed 3 t = ((cfg2.win 3).blk t).view.read (Elt Ideal)
      (Cert.Spec.scaledSoftmax (a := 50000) (n := 2) (V c main_v38) (V c main_v15) (V c main_v39)) := by
  show (cfg2.win 3).cut (grid2.coords t) ((Gen.dat2 V c).after 3 t) = _
  rw [Gen.after2_3]
  unfold Gen.out2_3
  rw [View.canon_unit_zero zero_off]
  simp only [View.ld_unit_zero (S := S2000x2) zero_off, View.ld_unit_zero (S := S2000x1) zero_off, View.ld_unit_zero (S := S1x2) zero_off]
  funext j
  obtain ⟨p, q, rfl⟩ : ∃ (p : Fin 2000) (q : Fin 2), j = ix2 p q := ⟨j 0, j 1, eq_ix2 j⟩
  obtain ⟨e0, e1, e2, e3, e4, e5, e6, e7⟩ := idx_facts t
  have hp : p.val < 2000 := p.isLt
  refine (pay_apply (Gen.iblk2 V c 0 t) (Gen.iblk2 V c 1 t) (Gen.iblk2 V c 2 t) p q).trans ?_
  show _ = Cert.Spec.scaledSoftmax (a := 50000) (n := 2) (V c main_v38) (V c main_v15) (V c main_v39)
    (((cfg2.win 3).blk t).view.emb (ix2 p q))
  refine softmax_block _ _ _ _ _ _ p q ⟨win2_3.index t (0 : Fin 2) * 2000 + p.val, by omega⟩ _ ?_ (fun e => ?_) ?_ (fun e => ?_)
  · funext a; apply Fin.ext
    match a with
    | ⟨0, _⟩ => show win2_3.index t (0 : Fin 2) * 2000 + 1 * p.val = win2_3.index t (0 : Fin 2) * 2000 + p.val; omega
    | ⟨1, _⟩ => show win2_3.index t (1 : Fin 2) * 2 + 1 * q.val = q.val; omega
  · show V c main_v38 (((cfg2.win 0).blk t).view.emb (ix2 p e)) = V c main_v38 (ix2 _ e)
    refine congrArg _ (funext fun a => Fin.ext ?_)
    match a with
    | ⟨0, _⟩ => show win2_0.index t (0 : Fin 2) * 2000 + 1 * p.val = win2_3.index t (0 : Fin 2) * 2000 + p.val; omega
    | ⟨1, _⟩ => show win2_0.index t (1 : Fin 2) * 2 + 1 * e.val = e.val; omega
  · show V c main_v15 (((cfg2.win 1).blk t).view.emb (ix2 p (0 : Fin 1))) = V c main_v15 (ix2 _ (0 : Fin 1))
    refine congrArg _ (funext fun a => Fin.ext ?_)
    match a with
    | ⟨0, _⟩ => show win2_1.index t (0 : Fin 2) * 2000 + 1 * p.val = win2_3.index t (0 : Fin 2) * 2000 + p.val; omega
    | ⟨1, _⟩ => show win2_1.index t (1 : Fin 2) * 1 + 1 * 0 = 0; omega
  · show V c main_v39 (((cfg2.win 2).blk t).view.emb (ix2 (0 : Fin 1) e)) = V c main_v39 (ix2 (0 : Fin 1) e)
    refine congrArg _ (funext fun a => Fin.ext ?_)
    match a with
    | ⟨0, _⟩ => show win2_2.index t (0 : Fin 2) * 1 + 1 * 0 = 0; omega
    | ⟨1, _⟩ => show win2_2.index t (1 : Fin 2) * 2 + 1 * e.val = e.val; omega

/-! ## From the blocks to the array -/

/-- An index of the array is in point t's block iff each coordinate is in the block's range on its axis. -/
theorem mem_blk (t : Fin cfg2.N) (i : S50000x2.Idx) :
    i ∈ ((cfg2.win 3).blk t).view.set ↔ ∀ a : Fin 2, win2_3.index t a * S2000x2.size a ≤ (i a).val
      ∧ (i a).val < win2_3.index t a * S2000x2.size a + S2000x2.size a := by
  show i ∈ ((View.whole main_v40).slice (win2_3.rect t)).set ↔ _
  rw [View.set_slice_whole, Rect.mem_set_unit]
  exact Iff.rfl

/-- Every row is in some point's block: row r is in row block r / 2000, and the one block of columns holds both
    columns. -/
theorem cover (i : S50000x2.Idx) :
    ∃ t : Fin cfg2.N, (cfg2.win 3).flush t = true ∧ i ∈ ((cfg2.win 3).blk t).view.set := by
  have hi0 : (i 0).val < 50000 := (i 0).isLt
  have hi1 : (i 1).val < 2 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, Gen.flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 2 ≤ (i 1).val ∧ (i 1).val < win2_3.index t (1 : Fin 2) * 2 + 2
    omega

/-- THE OUTPUT ARRAY after the region: the softmax of every row of agg · d + b. -/
theorem final (c : Dev nD) :
    (Gen.dat2 (F := Ideal) V c).arrAt 3 cfg2.N
      = Cert.Spec.scaledSoftmax (a := 50000) (n := 2) (V c main_v38) (V c main_v15) (V c main_v39) :=
  (Gen.dat2 V c).arrAt_eq_of_cover 3 _ (fun t _ => flushed_eq V c t) cover

end Cert.KernelIdeal.Region2
end
-- ==== Proof.KernelFold7.lean ====
/-
  The buffers after the second region, when the third is entered, and the result.

  The second region leaves its output array at the pre-scaled hidden product
  `(relu (agg1 · dis + x3) · x4) · dis`; the host stretch after it gathers that array's rows along the source column
  and adds them up through the destination column (the second aggregate), and makes the second bias a row; the third
  region leaves the result array at the softmax of every row of `agg2 · dis + x5`: `Stages.out` of the arguments.
-/
import proofs.«152044_j28544352649461_2_alg».proof.Proof.KernelFold5
import proofs.«152044_j28544352649461_2_alg».proof.Proof.Region1
import proofs.«152044_j28544352649461_2_alg».proof.Proof.Region2

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes keeps its contents: each operation's one result buffer is
    another buffer. -/
local macro "not_written" b:term:max ops:term:max V:term:max : tactic => `(tactic| (
  refine StableHlo.after_of_forall_not_mem (b := Proc.devRef .tc $b) $ops $V (List.forall_iff_forall_mem.mp ?_)
  simp only [hostOps0, hostOps0_1, hostOps0_2, hostOps1, hostOps2, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## After the second region -/

theorem W6_hidden : W6 (F := Ideal) m ρ c (Proc.devRef .tc main_v28)
    = Cert.Spec.hiddenScaledProduct (a := 50000) (k := 128) (n := 2) (agg1 (m ((c.tc : Thread nD τ).loc main_arg0)) (m ((c.tc : Thread nD τ).loc main_arg1)) (m ((c.tc : Thread nD τ).loc main_arg2)))
        (disCol (m ((c.tc : Thread nD τ).loc main_arg1))) (biasRow1 (m ((c.tc : Thread nD τ).loc main_arg3))) (m ((c.tc : Thread nD τ).loc main_arg4)) := by
  refine (W6_arr m ρ c 4).trans ((Cert.KernelIdeal.Region1.final (V5 (F := Ideal) m ρ) c).trans ?_)
  show Cert.Spec.hiddenScaledProduct (a := 50000) (k := 128) (n := 2) (W5 (F := Ideal) m ρ c (Proc.devRef .tc main_v26))
    (W5 (F := Ideal) m ρ c (Proc.devRef .tc main_v15)) (W5 (F := Ideal) m ρ c (Proc.devRef .tc main_v27))
    (W5 (F := Ideal) m ρ c (Proc.devRef .tc main_arg4)) = _
  rw [W5_agg, W5_dis, W5_bias, W5_arg4]

theorem W6_src : W6 (F := Ideal) m ρ c (Proc.devRef .tc main_v5) = srcIdx (m ((c.tc : Thread nD τ).loc main_arg1)) :=
  (W6_of_ne m ρ c main_v5 (by decide)).trans (W5_src m ρ c)
theorem W6_dst : W6 (F := Ideal) m ρ c (Proc.devRef .tc main_v6) = dstIdx (m ((c.tc : Thread nD τ).loc main_arg1)) :=
  (W6_of_ne m ρ c main_v6 (by decide)).trans (W5_dst m ρ c)
/-- The factor's column is one of the region's input arrays: it ends as entered. -/
theorem W6_dis : W6 (F := Ideal) m ρ c (Proc.devRef .tc main_v15) = disCol (m ((c.tc : Thread nD τ).loc main_arg1)) :=
  (W6_arr m ρ c 1).trans ((((dat1 (V5 (F := Ideal) m ρ) c).arrAt_in 1 rfl _).trans (A_eq1 (V5 (F := Ideal) m ρ) c 1)).trans (W5_dis m ρ c))
theorem W6_arg5 : W6 (F := Ideal) m ρ c (Proc.devRef .tc main_arg5) = m ((c.tc : Thread nD τ).loc main_arg5) :=
  (W6_of_ne m ρ c main_arg5 (by decide)).trans (W5_arg5 m ρ c)

/-! ## When the third region is entered -/

set_option maxHeartbeats 1000000 in
theorem W7_agg : W7 (F := Ideal) m ρ c (Proc.devRef .tc main_v38) = agg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hf := W6_hidden m ρ c
  have hs := W6_src m ρ c
  have hd := W6_dst m ρ c
  show StableHlo.after hostOps2 (W6 (F := Ideal) m ρ c) (Proc.devRef .tc main_v38) = _
  generalize W6 (F := Ideal) m ρ c = W at hf hs hd ⊢
  dsimp only [hostOps2]
  after_results
  rw [hf, hs, hd]
  unfold agg2 dstCol srcCol
  rfl

theorem W7_bias : W7 (F := Ideal) m ρ c (Proc.devRef .tc main_v39) = biasRow2 (m ((c.tc : Thread nD τ).loc main_arg5)) := by
  have h5 := W6_arg5 m ρ c
  show StableHlo.after hostOps2 (W6 (F := Ideal) m ρ c) (Proc.devRef .tc main_v39) = _
  generalize W6 (F := Ideal) m ρ c = W at h5 ⊢
  dsimp only [hostOps2]
  after_results
  rw [h5]
  rfl

theorem W7_dis : W7 (F := Ideal) m ρ c (Proc.devRef .tc main_v15) = disCol (m ((c.tc : Thread nD τ).loc main_arg1)) :=
  calc W7 (F := Ideal) m ρ c (Proc.devRef .tc main_v15)
    _ = W6 (F := Ideal) m ρ c (Proc.devRef .tc main_v15) := by not_written main_v15 hostOps2 (W6 (F := Ideal) m ρ c)
    _ = disCol (m ((c.tc : Thread nD τ).loc main_arg1)) := W6_dis m ρ c

/-! ## After the third region: the result -/

/-- The result buffer ends holding the softmax of every row of `agg2 · dis + x5`. -/
theorem result_eq : W8 (F := Ideal) m ρ c (Proc.devRef .tc main_v40)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 3).trans ((Cert.KernelIdeal.Region2.final (V7 (F := Ideal) m ρ) c).trans ?_)
  show Cert.Spec.scaledSoftmax (a := 50000) (n := 2) (W7 (F := Ideal) m ρ c (Proc.devRef .tc main_v38))
    (W7 (F := Ideal) m ρ c (Proc.devRef .tc main_v15)) (W7 (F := Ideal) m ρ c (Proc.devRef .tc main_v39)) = _
  rw [W7_agg, W7_dis, W7_bias]
  rfl

end Cert.KernelIdeal.Stages

end
-- ==== Proof.LibHostRowFold.lean ====
/-
  A host reduction over the last axis of a matrix, read at a row.

  A one-operand reduction of an `[a, b]` matrix over its last axis with a commutative and associative body `op`
  (a maximum, a minimum) holds, at row `i`, the fold of `op` from the initial value over that row's entries
  `(i, f)`, `f < b`. Stated for any extents, any element type and any such body.
-/
import Idealize.ShloMosaic.Lib.ValueIdx
import Idealize.ShloMosaic.PureOps.Reduce

noncomputable section

namespace Cert.LibHostRowFold

open Idealize.ShloMosaic Idealize.ShloMosaic.ValueIdx

/-- The host's reduce over the last axis of an `[a, b]` matrix reads, at row `i`, the fold of the body from the
    initial value over the row's entries. -/
theorem hostReduce_lastAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce op x init h' hu (ix1 i)
      = (Finset.univ : Finset (Fin b)).fold op (init (Shape.Idx.first hu)) (fun f : Fin b => x (ix2 i f)) := by
  refine (Host.reduce_eq_fold_single op x init h' h hu (ix1 i)).trans ?_
  refine congrArg (fun g => (Finset.univ : Finset (Fin b)).fold op (init (Shape.Idx.first hu)) g) ?_
  funext f
  exact congrArg x (funext fun d => Fin.ext (by
    match d with
    | ⟨0, _⟩ => rfl
    | ⟨1, _⟩ => rfl))

end Cert.LibHostRowFold

end
-- ==== Proof.RefRows.lean ====
/-
  The reference program of a two-layer graph convolution, read row by row on the extended reals.

  The program multiplies the node features by the first weight matrix, sends every node's row along the edges with
  a weight per edge and adds up what arrives; adds a bias, takes the positive part and multiplies by the second
  weight matrix; sends and adds up again; adds the second bias and takes the softmax of every row.  Each theorem
  reads one of these stages at an entry from the stage before it:
  * the feature product at (p, q) is the sum over j of x0[p, j] · x2[j, q];
  * an edge's message at (t, c) is the gathered row's entry times the edge weight, itself the product of the two
    gathered per-node factors of edge t;
  * the hidden product at (p, q) is the sum over j of max (agg1[p, j] + b1[j]) 0 · x4[j, q];
  * the output at (p, q) is the softmax of the row e ↦ agg2[p, e] + b2[e], the row maximum taken from minus infinity.
-/
import proofs.«152044_j28544352649461_2_alg».proof.Proof.RefReadP
import proofs.«152044_j28544352649461_2_alg».proof.Proof.Spec
import proofs.«152044_j28544352649461_2_alg».proof.Proof.LibHostRowFold
import proofs.«152044_j28544352649461_2_alg».proof.Proof.LibSoftmaxRows
import Idealize.ShloMosaic.Lib.ValueIdx
import Idealize.ShloMosaic.PureOps.Ideal.Laws

noncomputable section

open scoped BigOperators

namespace Cert.ReferenceIdeal.Rows

open Idealize.ShloMosaic Idealize.ShloMosaic.ValueIdx Idealize.SL.Sem Cert.ReferenceIdeal Cert.ReferenceIdeal.ReadP

variable (x0 : (⟨S50000x768, .f32⟩ : BufTy).Contents (Elt Ideal)) (x1 : (⟨S2x1600000, .i32⟩ : BufTy).Contents (Elt Ideal))
  (x2 : (⟨S768x128, .f32⟩ : BufTy).Contents (Elt Ideal)) (x3 : (⟨S128, .f32⟩ : BufTy).Contents (Elt Ideal))
  (x4 : (⟨S128x2, .f32⟩ : BufTy).Contents (Elt Ideal)) (x5 : (⟨S2, .f32⟩ : BufTy).Contents (Elt Ideal))

/-- The feature product: entry (p, q) is the sum over the contracted axis of x0[p, j] · x2[j, q]. -/
theorem feat_apply (p : Fin 50000) (q : Fin 128) :
    ReadP.val_main_v7 (F := Ideal) x0 x2 (ix2 p q) = ∑ j : Fin 768, x0 (ix2 p j) * x2 (ix2 j q) := by
  rw [val_main_v7_apply]
  refine Finset.sum_congr rfl fun k _ => ?_
  have el : lidx_main_v7 (ix2 p q) k = ix2 p k :=
    funext fun a => Fin.ext (by match a with | ⟨0, _⟩ => rfl | ⟨1, _⟩ => rfl)
  have er : ridx_main_v7 (ix2 p q) k = ix2 k q :=
    funext fun a => Fin.ext (by match a with | ⟨0, _⟩ => rfl | ⟨1, _⟩ => rfl)
  rw [el, er]

/-- A first-layer message: the gathered feature entry times the edge's weight; the weight column is constant along
    the row, and is the product of the two gathered per-node factors of that edge. -/
theorem upd1_apply (j : S1650000x128.Idx) :
    ReadP.val_main_v40 (F := Ideal) x0 x1 x2 j
      = ReadP.val_main_v37 (F := Ideal) x0 x1 x2 j
        * (ReadP.val_main_v22 (F := Ideal) x1 (ix1 (j 0)) * ReadP.val_main_v29 (F := Ideal) x1 (ix1 (j 0))) := by
  rw [val_main_v40_apply, val_main_v39_apply, val_main_v38_apply, val_main_v30_apply]
  have e : idx_main_v38 (idx_main_v39 j) = ix1 (j 0) :=
    funext fun a => Fin.ext (by match a with | ⟨0, _⟩ => rfl)
  rw [e]
  rfl

/-- The hidden product: the first aggregate plus the bias row, its positive part, times the second weight matrix. -/
theorem hidden_apply (p : Fin 50000) (q : Fin 2) :
    ReadP.val_main_v48 (F := Ideal) x0 x1 x2 x3 x4 (ix2 p q)
      = ∑ j : Fin 128, max (ReadP.val_main_v43 (F := Ideal) x0 x1 x2 (ix2 p j) + x3 (ix1 j)) 0 * x4 (ix2 j q) := by
  rw [val_main_v48_apply]
  refine Finset.sum_congr rfl fun k _ => ?_
  have el : lidx_main_v48 (ix2 p q) k = ix2 p k :=
    funext fun a => Fin.ext (by match a with | ⟨0, _⟩ => rfl | ⟨1, _⟩ => rfl)
  have er : ridx_main_v48 (ix2 p q) k = ix2 k q :=
    funext fun a => Fin.ext (by match a with | ⟨0, _⟩ => rfl | ⟨1, _⟩ => rfl)
  rw [el, er, val_main_v47_apply, val_main_v46_apply, val_main_v45_apply, val_main_v44_apply, val_main_call1_v0_apply,
    val_main_call1_cst_apply]
  have e3 : idx_main_v44 (idx_main_v45 (ix2 p k)) = ix1 k :=
    funext fun a => Fin.ext (by match a with | ⟨0, _⟩ => rfl)
  rw [e3]
  simp only [Ideal.maximumf_def, Ideal.addf_def, Ideal.ofBits_def, Ideal.ofBits_zero_f32]

/-- A second-layer message: the gathered hidden entry times the edge's weight, as in the first layer. -/
theorem upd2_apply (j : S1650000x2.Idx) :
    ReadP.val_main_v81 (F := Ideal) x0 x1 x2 x3 x4 j
      = ReadP.val_main_v78 (F := Ideal) x0 x1 x2 x3 x4 j
        * (ReadP.val_main_v63 (F := Ideal) x1 (ix1 (j 0)) * ReadP.val_main_v70 (F := Ideal) x1 (ix1 (j 0))) := by
  rw [val_main_v81_apply, val_main_v80_apply, val_main_v79_apply, val_main_v71_apply]
  have e : idx_main_v79 (idx_main_v80 j) = ix1 (j 0) :=
    funext fun a => Fin.ext (by match a with | ⟨0, _⟩ => rfl)
  rw [e]
  rfl

/-- The logits: the second aggregate plus the second bias row. -/
theorem logits_apply (p : Fin 50000) (e : Fin 2) :
    ReadP.val_main_v87 (F := Ideal) x0 x1 x2 x3 x4 x5 (ix2 p e)
      = ReadP.val_main_v84 (F := Ideal) x0 x1 x2 x3 x4 (ix2 p e) + x5 (ix1 e) := by
  rw [val_main_v87_apply, val_main_v86_apply, val_main_v85_apply]
  have e5 : idx_main_v85 (idx_main_v86 (ix2 p e)) = ix1 e :=
    funext fun a => Fin.ext (by match a with | ⟨0, _⟩ => rfl)
  rw [e5]
  rfl

/-- The row maximum: the reduction over the last axis folds the maximum from minus infinity over the row, and the
    further maximum with minus infinity changes nothing, a running maximum being at least where it started. -/
theorem rowMax_apply (p : Fin 50000) :
    ReadP.val_main_v90 (F := Ideal) x0 x1 x2 x3 x4 x5 (ix1 p)
      = Cert.Spec.rowMax (fun e : Fin 2 => ReadP.val_main_v87 (F := Ideal) x0 x1 x2 x3 x4 x5 (ix2 p e)) := by
  rw [val_main_v90_apply, val_main_v89_apply, val_main_cst_21_apply]
  unfold val_main_v88
  generalize ReadP.val_main_v87 (F := Ideal) x0 x1 x2 x3 x4 x5 = y
  have hr := Cert.LibHostRowFold.hostReduce_lastAxis_apply (FloatOps.maximumf (F := Ideal) (φ := .f32)) y
    (val_main_cst_20 (F := Ideal)) Gen.reducesTo_S50000x2_S50000_d1 (by decide) Gen.h_S_ p
  refine (congrArg (FloatOps.maximumf (F := Ideal) (φ := .f32) _) hr).trans ?_
  exact Cert.LibSoftmaxRows.max_fold_max _ _

/-- The shifted exponential: exp of the logit minus its row's maximum. -/
theorem expShift_apply (p : Fin 50000) (e : Fin 2) :
    ReadP.val_main_v94 (F := Ideal) x0 x1 x2 x3 x4 x5 (ix2 p e)
      = Ideal.exp (ReadP.val_main_v87 (F := Ideal) x0 x1 x2 x3 x4 x5 (ix2 p e)
          - Cert.Spec.rowMax (fun e' : Fin 2 => ReadP.val_main_v87 (F := Ideal) x0 x1 x2 x3 x4 x5 (ix2 p e'))) := by
  rw [val_main_v94_apply, val_main_v93_apply, val_main_v92_apply, val_main_v91_apply]
  have e1 : idx_main_v91 (idx_main_v92 (ix2 p e)) = ix1 p :=
    funext fun a => Fin.ext (by match a with | ⟨0, _⟩ => rfl)
  rw [e1, rowMax_apply]
  simp only [Ideal.hostUnary_exp_def, Ideal.subf_def]

/-- The output: the shifted exponential divided by its row's sum taken from zero, which is the softmax of the row
    of logits. -/
theorem out_apply (p : Fin 50000) (q : Fin 2) :
    ReadP.val_main_v98 (F := Ideal) x0 x1 x2 x3 x4 x5 (ix2 p q)
      = Cert.Spec.rowSoftmax
          (fun e : Fin 2 => ReadP.val_main_v84 (F := Ideal) x0 x1 x2 x3 x4 (ix2 p e) + x5 (ix1 e)) q := by
  have e1 : idx_main_v96 (idx_main_v97 (ix2 p q)) = ix1 p :=
    funext fun a => Fin.ext (by match a with | ⟨0, _⟩ => rfl)
  have e2 : ∀ k : Fin 2, idx_main_v95 (ix1 p) k = ix2 p k := fun k =>
    funext fun a => Fin.ext (by match a with | ⟨0, _⟩ => rfl | ⟨1, _⟩ => rfl)
  rw [val_main_v98_apply, val_main_v97_apply, val_main_v96_apply, e1, val_main_v95_apply, val_main_cst_22_apply]
  simp only [e2, expShift_apply, logits_apply, Ideal.hostDivf_def, Ideal.ofBits_def, Ideal.ofBits_zero_f32, zero_add]
  rfl

end Cert.ReferenceIdeal.Rows

end
-- ==== Proof.DegreeFacts.lean ====
/-
  The reference's normalisation factor and its index columns.

  deg : [50000] is the accumulating scatter of the constant 1 into zeros through the destination column, so at the
  ideal values deg i = 0 + (a finite sum of ones): a natural number. dis = select(deg > 0, rsqrt deg, 0) is then, at
  every node, either the reciprocal square root of a positive real or 0: a nonnegative real, never an infinity.
  The wrapped destination select(v < 0, v + 50000, v) is v itself wherever v, read signed, is not negative.
  The program computes deg, dis and the index columns several times over, each time by the same operations on the
  same operands: each repeated value is the first one.
-/
import proofs.«152044_j28544352649461_2_alg».proof.Proof.RefReadP
import Idealize.ShloMosaic.Lib.ValueIdx
import Idealize.ShloMosaic.PureOps.Ideal.Laws
import Idealize.ShloMosaic.Lib.Pipeline.Value

noncomputable section

namespace Cert.ReferenceIdeal.Degree

open Idealize.ShloMosaic Idealize.ShloMosaic.ValueIdx Cert.ReferenceIdeal Cert.ReferenceIdeal.ReadP

/-! ## Words and extended reals -/

/-- The f32 word of 1.0 denotes the real 1: exponent field 127 (the bias), fraction 0, so 2^23 · 2^(-23). -/
theorem ofBits_one_f32 : Ideal.ofBits .f32 0x3F800000#32 = 1 := by
  simp [Ideal.ofBits, Ideal.ieee]
  exact_mod_cast (by norm_num : (8388608 : ℝ) * ((2 : ℝ) ^ 23)⁻¹ = 1)

/-- A finite sum of ones is the number of its terms. -/
theorem sum_ones {α : Type} (s : Finset α) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The accumulating scatter of ones into zeros is, at every index, a natural number: the operand's 0 plus one 1
    for each update that lands there. (The set of those updates stays abstract; only its size is used.) -/
theorem scatter_ones_nat {s si su : Shape} (d : ScatterDims s si su) {w : Nat} (x : FVec Ideal s .f32) (idx : IVec si w)
    (upd : FVec Ideal su .f32) (hx : ∀ i, x i = 0) (hu : ∀ j, upd j = 1) (i : s.Idx) :
    ∃ n : ℕ, Host.scatterAdd d x idx upd i = ((n : ℝ) : EReal) := by
  unfold Host.scatterAdd
  rw [Ideal.hostScatterAdd_def]
  unfold Ideal.hostScatterAdd
  generalize Finset.univ.filter (fun j => d.resultIdx? j idx = some i) = t
  refine ⟨t.card, ?_⟩
  rw [hx i, zero_add, Finset.sum_congr rfl (fun j _ => hu j), sum_ones]

/-- The signed comparison "v < 0" is false on a word that, read signed, is not negative. -/
theorem slt_zero_of_nonneg (v : BitVec 32) (h : 0 ≤ v.toInt) : IntOp.cmpi .slt v 0#32 = 0#1 := by
  unfold IntOp.cmpi
  have : v.slt 0#32 = false := by
    rw [BitVec.slt_eq_decide]
    simp
    exact h
  simp [this]

/-- The comparison "a > 0" of extended reals answers 1 only where 0 < a. -/
theorem pos_of_cmp_ogt (a : EReal) (h : Ideal.cmp .ogt a 0 = 1#1) : 0 < a := by
  by_contra hlt
  simp [Ideal.cmp, hlt] at h

/-- The reciprocal square root of a positive natural number is the real (√n)⁻¹: nonnegative, not an infinity. -/
theorem rsqrt_nat_pos (n : ℕ) (h : (0 : EReal) < ((n : ℝ) : EReal)) :
    0 ≤ Ideal.rsqrt ((n : ℝ) : EReal) ∧ Ideal.rsqrt ((n : ℝ) : EReal) ≠ ⊤ := by
  have hn : (0 : ℝ) < (n : ℝ) := by exact_mod_cast h
  rw [Ideal.rsqrt_coe, if_neg (not_lt.mpr hn.le), if_neg hn.ne']
  refine ⟨?_, EReal.coe_ne_top _⟩
  exact_mod_cast (inv_nonneg.mpr (Real.sqrt_nonneg _))

/-! ## deg and dis -/

/-- deg i is a natural number: the operand %9 is the zero splat, the updates %8 the splat of 1. -/
theorem deg_nat (x1 : (⟨S2x1600000, .i32⟩ : BufTy).Contents (Elt Ideal)) (i : S50000.Idx) :
    ∃ n : ℕ, ReadP.val_main_v11 (F := Ideal) x1 i = ((n : ℝ) : EReal) := by
  unfold ReadP.val_main_v11
  refine scatter_ones_nat _ _ _ _ (fun k => ?_) (fun j => ?_) i
  · rw [ReadP.val_main_v9_apply, ReadP.val_main_cst_0_apply]
    exact Ideal.ofBits_zero_f32
  · rw [ReadP.val_main_v8_apply, ReadP.val_main_cst_apply]
    exact ofBits_one_f32

/-- dis i = select(deg i > 0, rsqrt (deg i), 0) is a nonnegative real. Where the comparison's bit is 1, deg i is a
    positive natural number and dis i its reciprocal square root; where it is not, dis i is the constant 0. -/
theorem dis_nonneg_real (x1 : (⟨S2x1600000, .i32⟩ : BufTy).Contents (Elt Ideal)) (i : S50000.Idx) :
    0 ≤ ReadP.val_main_v15 (F := Ideal) x1 i ∧ ReadP.val_main_v15 (F := Ideal) x1 i ≠ ⊤ := by
  obtain ⟨n, hn⟩ := deg_nat x1 i
  rw [ReadP.val_main_v15_apply]
  by_cases hc : ReadP.val_main_v13 (F := Ideal) x1 i = 1#1
  · have hpos : (0 : EReal) < ((n : ℝ) : EReal) := by
      rw [ReadP.val_main_v13_apply, Ideal.cmpf_def, hn, ReadP.val_main_v12_apply, ReadP.val_main_cst_1_apply] at hc
      exact pos_of_cmp_ogt _ (Ideal.ofBits_zero_f32 ▸ hc)
    rw [hc, select_one, ReadP.val_main_v14_apply, Ideal.hostUnary_rsqrt_def, hn]
    exact rsqrt_nat_pos n hpos
  · rw [eq_zero_of_ne_one hc, select_zero, ReadP.val_main_call0_v1_apply, ReadP.val_main_call0_v0_apply,
      ReadP.val_main_cst_2_apply]
    show 0 ≤ Ideal.ofBits .f32 0x00000000#32 ∧ Ideal.ofBits .f32 0x00000000#32 ≠ ⊤
    rw [Ideal.ofBits_zero_f32]
    exact ⟨le_refl _, EReal.zero_ne_top⟩

/-! ## The wrapped destination -/

/-- The column %28 at (e, 0) reads the vector %27 at e. -/
theorem idx28 (e : Fin 1650000) : ReadP.idx_main_v28 (ix2 e (0 : Fin 1)) = ix1 e := by
  funext a; match a with | ⟨0, _⟩ => rfl
/-- The column %42 at (e, 0) reads the vector %6 at e. -/
theorem idx42 (e : Fin 1650000) : ReadP.idx_main_v42 (ix2 e (0 : Fin 1)) = ix1 e := by
  funext a; match a with | ⟨0, _⟩ => rfl

/-- Where the raw destination of edge e, read signed, is not negative, the comparison %24 = (%6 < 0) is 0 at e and
    the select %27 takes its third operand %6: the wrapped destination is the raw one. -/
theorem wrap_agrees (x1 : (⟨S2x1600000, .i32⟩ : BufTy).Contents (Elt Ideal)) (e : Fin 1650000) :
    0 ≤ (ReadP.val_main_v42 (F := Ideal) x1 (ix2 e (0 : Fin 1))).toInt →
    (ReadP.val_main_v42 (F := Ideal) x1 (ix2 e (0 : Fin 1))).toInt < ((50000 : ℕ) : ℤ) →
    ReadP.val_main_v28 (F := Ideal) x1 (ix2 e (0 : Fin 1)) = ReadP.val_main_v42 (F := Ideal) x1 (ix2 e (0 : Fin 1)) := by
  intro h0 _
  rw [ReadP.val_main_v42_apply, idx42] at h0 ⊢
  rw [ReadP.val_main_v28_apply, idx28, ReadP.val_main_v27_apply, ReadP.val_main_v24_apply, ReadP.val_main_v23_apply,
    ReadP.val_main_c_4_apply, slt_zero_of_nonneg _ h0, select_zero]

/-! ## The repeated operations

Each repeated value is spelt by the same operations on the same operands as the first, down to the constants'
words, so the two definitions unfold to one term. -/

theorem dis_again (x1 : (⟨S2x1600000, .i32⟩ : BufTy).Contents (Elt Ideal)) :
    ReadP.val_main_v56 (F := Ideal) x1 = ReadP.val_main_v15 (F := Ideal) x1 := rfl

theorem src_again (x1 : (⟨S2x1600000, .i32⟩ : BufTy).Contents (Elt Ideal)) :
    ReadP.val_main_v36 (F := Ideal) x1 = ReadP.val_main_v21 (F := Ideal) x1 ∧
    ReadP.val_main_v62 (F := Ideal) x1 = ReadP.val_main_v21 (F := Ideal) x1 ∧
    ReadP.val_main_v77 (F := Ideal) x1 = ReadP.val_main_v21 (F := Ideal) x1 := ⟨rfl, rfl, rfl⟩

theorem dst_again (x1 : (⟨S2x1600000, .i32⟩ : BufTy).Contents (Elt Ideal)) :
    ReadP.val_main_v69 (F := Ideal) x1 = ReadP.val_main_v28 (F := Ideal) x1 ∧
    ReadP.val_main_v83 (F := Ideal) x1 = ReadP.val_main_v42 (F := Ideal) x1 ∧
    ReadP.val_main_v10 (F := Ideal) x1 = ReadP.val_main_v42 (F := Ideal) x1 ∧
    ReadP.val_main_v51 (F := Ideal) x1 = ReadP.val_main_v42 (F := Ideal) x1 := ⟨rfl, rfl, rfl, rfl⟩

end Cert.ReferenceIdeal.Degree
-- ==== Proof.BridgeCols.lean ====
/-
  The two programs compute the same index columns and the same per-node factor.

  Both take the edge list apart in the same way: the sources and the destinations of the edges, the self loops
  appended; the destinations as a column; the sources, negative values wrapped by the number of nodes, as a column;
  the degree as ones added up at the destinations; the factor `deg^(-1/2)` where the degree is positive and 0
  elsewhere. Operation by operation the two spellings are the same, so each stage of the one IS the stage of the
  other. Also here: the factor's column and the bias rows read at an entry, and that the arrays the aggregations
  start from are zero.
-/
import proofs.«152044_j28544352649461_2_alg».proof.Proof.KernelStages
import proofs.«152044_j28544352649461_2_alg».proof.Proof.RefRows
import proofs.«152044_j28544352649461_2_alg».proof.Proof.DegreeFacts
import proofs.«152044_j28544352649461_2_alg».proof.Proof.LibKeepdims
import Idealize.ShloMosaic.Lib.ValueLayout

noncomputable section

open scoped BigOperators

namespace Cert.Bridge

open Idealize.ShloMosaic Idealize.ShloMosaic.ValueIdx Idealize.SL.Sem
open Cert.KernelIdeal.Stages Cert.ReferenceIdeal.ReadP Cert.ReferenceIdeal.Rows Cert.ReferenceIdeal.Degree

variable (x0 : FVec Ideal ⟨2, ![50000, 768]⟩ .f32) (x1 : IVec ⟨2, ![2, 1600000]⟩ 32) (x2 : FVec Ideal ⟨2, ![768, 128]⟩ .f32)
  (x3 : FVec Ideal ⟨1, ![128]⟩ .f32) (x4 : FVec Ideal ⟨2, ![128, 2]⟩ .f32) (x5 : FVec Ideal ⟨1, ![2]⟩ .f32)

/-! ## The index columns and the factor -/

/-- The edges' sources. -/
theorem srcIdx_eq : srcIdx x1 = val_main_v3 (F := Ideal) x1 := by
  unfold srcIdx val_main_v3 val_main_v2 val_main_v1 val_main_v0
  rfl

/-- The edges' destinations. -/
theorem dstIdx_eq : dstIdx x1 = val_main_v6 (F := Ideal) x1 := by
  unfold dstIdx val_main_v6 val_main_v5 val_main_v4 val_main_v0
  rfl

/-- The raw destination column. -/
theorem dstCol_eq : dstCol x1 = val_main_v42 (F := Ideal) x1 := by
  unfold dstCol val_main_v42
  rw [dstIdx_eq] <;> rfl

/-- The wrapped source column. -/
theorem srcCol_eq : srcCol x1 = val_main_v21 (F := Ideal) x1 := by
  unfold srcCol val_main_v21 val_main_v20 val_main_v17 val_main_v19 val_main_v16 val_main_v18 val_main_c val_main_c_3
  rw [srcIdx_eq] <;> rfl

/-- The degree. -/
theorem deg_eq : deg x1 = val_main_v11 (F := Ideal) x1 := by
  unfold deg dstCol val_main_v11 val_main_v9 val_main_v10 val_main_v8 val_main_cst val_main_cst_0
  rw [dstIdx_eq] <;> rfl

/-- The per-node factor. -/
theorem dis_eq : dis x1 = val_main_v15 (F := Ideal) x1 := by
  unfold dis val_main_v15 val_main_v13 val_main_v14 val_main_call0_v1 val_main_call0_v0 val_main_cst_2 val_main_v12 val_main_cst_1
  rw [deg_eq] <;> rfl

/-! ## Reads at an entry -/

/-- The factor's column at row `p` is the factor at `p`. -/
theorem disCol_apply (p : Fin 50000) : disCol x1 (ix2 p (0 : Fin 1)) = val_main_v15 (F := Ideal) x1 (ix1 p) := by
  unfold disCol
  rw [dis_eq]
  exact Cert.LibKeepdims.shapeCast_a_a1_apply (val_main_v15 (F := Ideal) x1) _ p 0

/-- A bias vector made one row reads the vector. -/
theorem biasRow1_apply (j : Fin 128) : biasRow1 x3 (ix2 (0 : Fin 1) j) = x3 (ix1 j) :=
  shapeCast_a_1a_apply x3 _ 0 j
theorem biasRow2_apply (e : Fin 2) : biasRow2 x5 (ix2 (0 : Fin 1) e) = x5 (ix1 e) :=
  shapeCast_a_1a_apply x5 _ 0 e

/-- The arrays the scatter-adds start from are zero. -/
theorem zero128 (i : (⟨2, ![50000, 128]⟩ : Shape).Idx) : val_main_v41 (F := Ideal) i = 0 := by
  rw [val_main_v41_apply, val_main_cst_8_apply]
  exact Ideal.ofBits_zero_f32
theorem zero2 (i : (⟨2, ![50000, 2]⟩ : Shape).Idx) : val_main_v82 (F := Ideal) i = 0 := by
  rw [val_main_v82_apply, val_main_cst_19_apply]
  exact Ideal.ofBits_zero_f32

end Cert.Bridge

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«152044_j28544352649461_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«152044_j28544352649461_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.BridgeLayer1.lean ====
/-
  The first layer: the kernel's aggregate, post-scaled, is the reference's.

  The kernel gathers the rows of `(x0 · x2) · dis` along the edges and adds them up at the destinations; multiplied by
  `dis` of the destination this is the reference's aggregate of the rows of `x0 · x2`, each message weighted by
  `dis[src] · dis[dst]`: the per-node factor is a nonnegative real, so it distributes over the sum of the messages
  that arrive; an edge whose destination is out of range contributes to neither sum, and for the others the
  reference's wrapped destination is the raw one.
-/
import proofs.«152044_j28544352649461_2_alg».proof.Proof.BridgeCols
import proofs.«152044_j28544352649461_2_alg».proof.Proof.LibHostAggregate

noncomputable section

open scoped BigOperators

namespace Cert.Bridge

open Idealize.ShloMosaic Idealize.ShloMosaic.ValueIdx Idealize.SL.Sem
open Cert.KernelIdeal.Stages Cert.ReferenceIdeal.ReadP Cert.ReferenceIdeal.Rows Cert.ReferenceIdeal.Degree
open Cert.LibEdgeReads Cert.LibScaledAggregate Cert.LibHostAggregate

variable (x0 : FVec Ideal ⟨2, ![50000, 768]⟩ .f32) (x1 : IVec ⟨2, ![2, 1600000]⟩ 32) (x2 : FVec Ideal ⟨2, ![768, 128]⟩ .f32)
  (x3 : FVec Ideal ⟨1, ![128]⟩ .f32) (x4 : FVec Ideal ⟨2, ![128, 2]⟩ .f32) (x5 : FVec Ideal ⟨1, ![2]⟩ .f32)

/-- The kernel's pre-scaled features are the reference's features times the factor of the row. -/
theorem scaled1 : Cert.Spec.scaledProduct (a := 50000) (k := 768) (n := 128) x0 x2 (disCol x1)
    = fun i => val_main_v7 (F := Ideal) x0 x2 i * val_main_v15 (F := Ideal) x1 (ix1 (i 0)) := by
  funext i
  obtain ⟨p, q, rfl⟩ : ∃ (p : Fin 50000) (q : Fin 128), i = ix2 p q := ⟨i 0, i 1, eq_ix2 i⟩
  show Cert.Spec.scaledProduct x0 x2 (disCol x1) (ix2 p q) = val_main_v7 (F := Ideal) x0 x2 (ix2 p q) * val_main_v15 (F := Ideal) x1 (ix1 p)
  rw [Cert.Spec.scaledProduct_apply, feat_apply, disCol_apply]

/-- The reference's messages, spelt over the gathers: the gathered row times the edge's weight. -/
theorem upd1_eq : val_main_v40 (F := Ideal) x0 x1 x2
    = fun j => Host.gather Cert.ReferenceIdeal.gather_S50000x128_S1650000x1_S1650000x128_1_0_n_n_0_1_1128 (val_main_v7 (F := Ideal) x0 x2) (val_main_v21 (F := Ideal) x1) j
        * (Host.gather Cert.ReferenceIdeal.gather_S50000_S1650000x1_S1650000_n_0_n_n_0_1_1 (val_main_v15 (F := Ideal) x1) (val_main_v21 (F := Ideal) x1) (ix1 (j 0))
          * Host.gather Cert.ReferenceIdeal.gather_S50000_S1650000x1_S1650000_n_0_n_n_0_1_1 (val_main_v15 (F := Ideal) x1) (val_main_v28 (F := Ideal) x1) (ix1 (j 0))) := by
  funext j
  rw [upd1_apply]
  unfold val_main_v37 val_main_v22 val_main_v29
  rw [(src_again x1).1]

/-- THE AGGREGATE: the kernel's, post-scaled, is the reference's. -/
theorem agg1_scaled (p : Fin 50000) (q : Fin 128) :
    agg1 x0 x1 x2 (ix2 p q) * val_main_v15 (F := Ideal) x1 (ix1 p) = val_main_v43 (F := Ideal) x0 x1 x2 (ix2 p q) := by
  rw [mul_comm]
  unfold agg1 val_main_v43
  rw [scaled1, srcCol_eq, dstCol_eq, upd1_eq]
  exact layer_law (N := 50000) (E := 1650000) (C := 128) (w := 32) (by norm_num)
    Cert.KernelIdeal.scatter_S50000x128_S1650000x1_S1650000x128_1_0_0_1.wf Cert.ReferenceIdeal.scatter_S50000x128_S1650000x1_S1650000x128_1_0_0_1.wf
    Cert.KernelIdeal.gather_S50000x128_S1650000x1_S1650000x128_1_0_n_n_0_1_1128.wf Cert.ReferenceIdeal.gather_S50000x128_S1650000x1_S1650000x128_1_0_n_n_0_1_1128.wf
    Cert.ReferenceIdeal.gather_S50000_S1650000x1_S1650000_n_0_n_n_0_1_1.wf
    Cert.KernelIdeal.scatter_S50000x128_S1650000x1_S1650000x128_1_0_0_1 Cert.ReferenceIdeal.scatter_S50000x128_S1650000x1_S1650000x128_1_0_0_1 rfl rfl
    Cert.KernelIdeal.gather_S50000x128_S1650000x1_S1650000x128_1_0_n_n_0_1_1128 Cert.ReferenceIdeal.gather_S50000x128_S1650000x1_S1650000x128_1_0_n_n_0_1_1128 rfl rfl
    Cert.ReferenceIdeal.gather_S50000_S1650000x1_S1650000_n_0_n_n_0_1_1 rfl
    (val_main_v7 (F := Ideal) x0 x2) (val_main_v15 (F := Ideal) x1) (dis_nonneg_real x1)
    _ _ (zero128) (zero128)
    (val_main_v21 (F := Ideal) x1) (val_main_v42 (F := Ideal) x1) (val_main_v28 (F := Ideal) x1)
    (fun e h1 h2 => wrap_agrees x1 e h1 h2) p q

end Cert.Bridge

end
-- ==== Proof.BridgeLayer2.lean ====
/-
  The second layer: the kernel's aggregate, post-scaled, is the reference's.

  The hidden features `max (agg1 · dis + x3) 0` are the reference's by the first layer; their product with `x4`,
  pre-scaled by `dis`, gathered along the edges, added up at the destinations and post-scaled by `dis` is the
  reference's second aggregate, by the same law as in the first layer.
-/
import proofs.«152044_j28544352649461_2_alg».proof.Proof.BridgeLayer1

noncomputable section

open scoped BigOperators

namespace Cert.Bridge

open Idealize.ShloMosaic Idealize.ShloMosaic.ValueIdx Idealize.SL.Sem
open Cert.KernelIdeal.Stages Cert.ReferenceIdeal.ReadP Cert.ReferenceIdeal.Rows Cert.ReferenceIdeal.Degree
open Cert.LibEdgeReads Cert.LibScaledAggregate Cert.LibHostAggregate

variable (x0 : FVec Ideal ⟨2, ![50000, 768]⟩ .f32) (x1 : IVec ⟨2, ![2, 1600000]⟩ 32) (x2 : FVec Ideal ⟨2, ![768, 128]⟩ .f32)
  (x3 : FVec Ideal ⟨1, ![128]⟩ .f32) (x4 : FVec Ideal ⟨2, ![128, 2]⟩ .f32) (x5 : FVec Ideal ⟨1, ![2]⟩ .f32)

/-- The kernel's pre-scaled hidden product is the reference's hidden product times the factor of the row. -/
theorem scaled2 : Cert.Spec.hiddenScaledProduct (a := 50000) (k := 128) (n := 2) (agg1 x0 x1 x2) (disCol x1) (biasRow1 x3) x4
    = fun i => val_main_v48 (F := Ideal) x0 x1 x2 x3 x4 i * val_main_v15 (F := Ideal) x1 (ix1 (i 0)) := by
  funext i
  obtain ⟨p, q, rfl⟩ : ∃ (p : Fin 50000) (q : Fin 2), i = ix2 p q := ⟨i 0, i 1, eq_ix2 i⟩
  show Cert.Spec.hiddenScaledProduct (agg1 x0 x1 x2) (disCol x1) (biasRow1 x3) x4 (ix2 p q)
    = val_main_v48 (F := Ideal) x0 x1 x2 x3 x4 (ix2 p q) * val_main_v15 (F := Ideal) x1 (ix1 p)
  rw [Cert.Spec.hiddenScaledProduct_apply, hidden_apply, disCol_apply]
  refine congrArg (· * val_main_v15 (F := Ideal) x1 (ix1 p)) (Finset.sum_congr rfl fun j _ => ?_)
  rw [agg1_scaled, biasRow1_apply]

/-- The reference's messages, spelt over the gathers: the gathered row times the edge's weight. -/
theorem upd2_eq : val_main_v81 (F := Ideal) x0 x1 x2 x3 x4
    = fun j => Host.gather Cert.ReferenceIdeal.gather_S50000x2_S1650000x1_S1650000x2_1_0_n_n_0_1_12 (val_main_v48 (F := Ideal) x0 x1 x2 x3 x4) (val_main_v21 (F := Ideal) x1) j
        * (Host.gather Cert.ReferenceIdeal.gather_S50000_S1650000x1_S1650000_n_0_n_n_0_1_1 (val_main_v15 (F := Ideal) x1) (val_main_v21 (F := Ideal) x1) (ix1 (j 0))
          * Host.gather Cert.ReferenceIdeal.gather_S50000_S1650000x1_S1650000_n_0_n_n_0_1_1 (val_main_v15 (F := Ideal) x1) (val_main_v28 (F := Ideal) x1) (ix1 (j 0))) := by
  funext j
  rw [upd2_apply]
  unfold val_main_v78 val_main_v63 val_main_v70
  rw [(src_again x1).2.2, (src_again x1).2.1, (dst_again x1).1, dis_again x1]

/-- THE AGGREGATE: the kernel's, post-scaled, is the reference's. -/
theorem agg2_scaled (p : Fin 50000) (q : Fin 2) :
    agg2 x0 x1 x2 x3 x4 (ix2 p q) * val_main_v15 (F := Ideal) x1 (ix1 p) = val_main_v84 (F := Ideal) x0 x1 x2 x3 x4 (ix2 p q) := by
  rw [mul_comm]
  unfold agg2 val_main_v84
  rw [scaled2, srcCol_eq, dstCol_eq, upd2_eq, (dst_again x1).2.1]
  exact layer_law (N := 50000) (E := 1650000) (C := 2) (w := 32) (by norm_num)
    Cert.KernelIdeal.scatter_S50000x2_S1650000x1_S1650000x2_1_0_0_1.wf Cert.ReferenceIdeal.scatter_S50000x2_S1650000x1_S1650000x2_1_0_0_1.wf
    Cert.KernelIdeal.gather_S50000x2_S1650000x1_S1650000x2_1_0_n_n_0_1_12.wf Cert.ReferenceIdeal.gather_S50000x2_S1650000x1_S1650000x2_1_0_n_n_0_1_12.wf
    Cert.ReferenceIdeal.gather_S50000_S1650000x1_S1650000_n_0_n_n_0_1_1.wf
    Cert.KernelIdeal.scatter_S50000x2_S1650000x1_S1650000x2_1_0_0_1 Cert.ReferenceIdeal.scatter_S50000x2_S1650000x1_S1650000x2_1_0_0_1 rfl rfl
    Cert.KernelIdeal.gather_S50000x2_S1650000x1_S1650000x2_1_0_n_n_0_1_12 Cert.ReferenceIdeal.gather_S50000x2_S1650000x1_S1650000x2_1_0_n_n_0_1_12 rfl rfl
    Cert.ReferenceIdeal.gather_S50000_S1650000x1_S1650000_n_0_n_n_0_1_1 rfl
    (val_main_v48 (F := Ideal) x0 x1 x2 x3 x4) (val_main_v15 (F := Ideal) x1) (dis_nonneg_real x1)
    _ _ (zero2) (zero2)
    (val_main_v21 (F := Ideal) x1) (val_main_v42 (F := Ideal) x1) (val_main_v28 (F := Ideal) x1)
    (fun e h1 h2 => wrap_agrees x1 e h1 h2) p q

end Cert.Bridge

end
-- ==== Proof.BridgeOut.lean ====
/-
  The two programs' results are one function of the arguments.

  Entry (p, q) of either is the softmax, at q, of row p of the logits; the kernel's logits are its second aggregate
  post-scaled by the per-node factor plus the second bias, the reference's its second aggregate plus the second bias,
  and the two aggregates agree by the second layer.
-/
import proofs.«152044_j28544352649461_2_alg».proof.Proof.BridgeLayer2

noncomputable section

open scoped BigOperators

namespace Cert.Bridge

open Idealize.ShloMosaic Idealize.ShloMosaic.ValueIdx Idealize.SL.Sem
open Cert.KernelIdeal.Stages Cert.ReferenceIdeal.ReadP Cert.ReferenceIdeal.Rows Cert.ReferenceIdeal.Degree

variable (x0 : FVec Ideal ⟨2, ![50000, 768]⟩ .f32) (x1 : IVec ⟨2, ![2, 1600000]⟩ 32) (x2 : FVec Ideal ⟨2, ![768, 128]⟩ .f32)
  (x3 : FVec Ideal ⟨1, ![128]⟩ .f32) (x4 : FVec Ideal ⟨2, ![128, 2]⟩ .f32) (x5 : FVec Ideal ⟨1, ![2]⟩ .f32)

/-- THE TWO PROGRAMS' RESULTS ARE ONE FUNCTION of the arguments. -/
theorem out_eq : out x0 x1 x2 x3 x4 x5 = val_main_v98 (F := Ideal) x0 x1 x2 x3 x4 x5 := by
  funext i
  obtain ⟨p, q, rfl⟩ : ∃ (p : Fin 50000) (q : Fin 2), i = ix2 p q := ⟨i 0, i 1, eq_ix2 i⟩
  rw [out_apply]
  show Cert.Spec.scaledSoftmax (agg2 x0 x1 x2 x3 x4) (disCol x1) (biasRow2 x5) (ix2 p q) = _
  rw [Cert.Spec.scaledSoftmax_apply]
  refine congrArg (fun v => Cert.Spec.rowSoftmax v q) (funext fun e => ?_)
  rw [disCol_apply, agg2_scaled, biasRow2_apply]

end Cert.Bridge

end
-- ==== Proof.lean ====
/-
  A two-layer graph convolution with symmetric normalisation, as three grid kernels among host gathers and
  scatter-adds, against its plain reference: both end with equal results on the extended reals.

  With `dis = deg^(-1/2)` (0 where a node has no incoming edge) the reference computes, per layer,
      out[p] = Σ_{e : dst e = p} h[src e] · (dis[src e] · dis[dst e])  (+ bias),
  weighting every message on its edge. The kernel multiplies the node array by `dis` per row before the rows travel
  and the sum by `dis` per row after they are added up:
      out[p] = dis[p] · Σ_{e : dst e = p} (h · dis)[src e]  (+ bias).
  The two are equal because `dis` is a nonnegative real, which distributes over any finite sum of extended reals; no
  finiteness of the inputs is used. Around the aggregation both programs do the same things entry by entry: the
  feature products, the bias and the positive part, and the softmax of every row.

  The pieces: each region's output array as one whole-array function (Region0, Region1, Region2); the program's buffers
  followed from the launch memory to the result (KernelFold1 … KernelFold7), over the run stated with its result named
  (KernelRun); the reference read row by row (RefRows), its factor and index columns (DegreeFacts); and the two
  functions identified (BridgeCols, BridgeLayer1, BridgeLayer2, BridgeOut). The ideal pass rewrote no operation, so
  the kernel's idealization is its own text read on the extended reals.
-/
import proofs.«152044_j28544352649461_2_alg».proof.Defs
import proofs.«152044_j28544352649461_2_alg».proof.Proof.Gen.Kernel
import proofs.«152044_j28544352649461_2_alg».proof.Proof.Gen.Kernel.Skeleton
import proofs.«152044_j28544352649461_2_alg».proof.Proof.Gen.Kernel.Launch
import proofs.«152044_j28544352649461_2_alg».proof.Proof.Gen.Kernel.Points
import proofs.«152044_j28544352649461_2_alg».proof.Proof.Gen.Kernel.Frame
import proofs.«152044_j28544352649461_2_alg».proof.Proof.Gen.KernelIdeal
import proofs.«152044_j28544352649461_2_alg».proof.Proof.Gen.KernelIdeal.Skeleton
import proofs.«152044_j28544352649461_2_alg».proof.Proof.Gen.KernelIdeal.Launch
import proofs.«152044_j28544352649461_2_alg».proof.Proof.Gen.KernelIdeal.Points
import proofs.«152044_j28544352649461_2_alg».proof.Proof.Gen.KernelIdeal.Frame
import proofs.«152044_j28544352649461_2_alg».proof.Proof.Gen.ReferenceIdeal
import proofs.«152044_j28544352649461_2_alg».proof.Proof.Gen.Pre_finite_inputs
import proofs.«152044_j28544352649461_2_alg».proof.Proof.RefRunP
import proofs.«152044_j28544352649461_2_alg».proof.Proof.RefReadP
import proofs.«152044_j28544352649461_2_alg».proof.Proof.KernelRun
import proofs.«152044_j28544352649461_2_alg».proof.Proof.KernelFold7
import proofs.«152044_j28544352649461_2_alg».proof.Proof.BridgeOut
import Idealize.ShloMosaic.Adequacy
import Idealize.ShloMosaic.Init

noncomputable section

namespace Cert.Proof

open Idealize.ShloMosaic Idealize.SL.Sem

/-- The word-level kernel runs and its arguments end unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and its arguments end unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and its arguments end unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- On the extended reals the kernel's result array ends at `Stages.out` of its arguments, and the reference's at its last
    stage of arguments that agree with them: one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stages.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Stages.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v98_eq, (hagree c).1, (hagree c).2.1, (hagree c).2.2.1, (hagree c).2.2.2.1,
      (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
